-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S64 .f32) (main_arg5 : FVec F S64x2 .f32) (main_arg6 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg5
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x128 .f32) (main_arg1 : FVec F S128x64 .f32) (main_arg2 : FVec F S64 .f32) (main_arg3 : FVec F S64x64 .f32) (main_arg4 : FVec F S64 .f32) (main_arg5 : FVec F S64x2 .f32) (main_arg6 : FVec F S2 .f32) (main_arg7 : IVec S1600000 32) (main_arg8 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64 : Shape := ⟨2, ![1, 64]⟩
abbrev S1x2 : Shape := ⟨2, ![1, 2]⟩
abbrev S100000x64 : Shape := ⟨2, ![100000, 64]⟩
abbrev S2000x128 : Shape := ⟨2, ![2000, 128]⟩
abbrev S2000x1 : Shape := ⟨2, ![2000, 1]⟩
abbrev S2000x64 : Shape := ⟨2, ![2000, 64]⟩
abbrev S1600000x64 : Shape := ⟨2, ![1600000, 64]⟩
abbrev S100000x2 : Shape := ⟨2, ![100000, 2]⟩
abbrev S2000x2 : Shape := ⟨2, ![2000, 2]⟩

abbrev nBuf : Space → Nat
  | .hbm => 65
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x2, .f32⟩
  | .hbm, ⟨6, _⟩ => ⟨S2, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x1, .f32⟩
  | .hbm, ⟨33, _⟩ => ⟨S1x64, .f32⟩
  | .hbm, ⟨34, _⟩ => ⟨S1x64, .f32⟩
  | .hbm, ⟨35, _⟩ => ⟨S1x2, .f32⟩
  | .hbm, ⟨36, _⟩ => ⟨S100000x64, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S100000x64, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .hbm, ⟨64, _⟩ => ⟨S100000x2, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S1x64, .f32⟩
  | .local _ .vmem, ⟨12, _⟩ => ⟨S2000x1, .f32⟩
  | .local _ .vmem, ⟨13, _⟩ => ⟨S2000x1, .f32⟩
  | .local _ .vmem, ⟨14, _⟩ => ⟨S64x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x1, .f32⟩
  | .local _ .vmem, ⟨20, _⟩ => ⟨S2000x1, .f32⟩
  | .local _ .vmem, ⟨21, _⟩ => ⟨S1x64, .f32⟩
  | .local _ .vmem, ⟨22, _⟩ => ⟨S64x2, .f32⟩
  | .local _ .vmem, ⟨23, _⟩ => ⟨S1x2, .f32⟩
  | .local _ .vmem, ⟨24, _⟩ => ⟨S2000x2, .f32⟩
  | .local _ .vmem, ⟨25, _⟩ => ⟨S2000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_cst_3 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_c_8 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_9 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S2_S1x2_1 : S2.BroadcastsInDim S1x2 (![1] : Fin 1 → Fin S1x2.rank)
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S_S100000x64 : S_.BroadcastsInDim S100000x64 (![] : Fin 0 → Fin S100000x64.rank)
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S100000_S1600000x1_S1600000_n_0_0_1_wf : ScatterDims.WF S100000 S1600000x1 S1600000 [] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x64_S2000x64_1_0_0_1_n_n_wf : DotDims.WF S2000x64 S64x64 S2000x64 [1] [0] [0] [1] [] []
  dot_S2000x64_S64x2_S2000x2_1_0_0_1_n_n_wf : DotDims.WF S2000x64 S64x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S100000x1.size a
  hwx1_3 : ∀ i : grid1.Coords, EltTy.bits .f32 = 32 ∨ (Rect.block (s := S100000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x2.size a ≤ S64x2.size a
  hwx2_3 : ∀ i : grid2.Coords, EltTy.bits .f32 = 32 ∨ (Rect.block (s := S64x2) S64x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2.size a ≤ S1x2.size a
  hwx2_4 : ∀ i : grid2.Coords, EltTy.bits .f32 = 32 ∨ (Rect.block (s := S1x2) S1x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x2.size a ≤ S100000x2.size a
  hwx2_5 : ∀ i : grid2.Coords, EltTy.bits .f32 = 32 ∨ (Rect.block (s := S100000x2) S2000x2.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x2_S2000x2_1_0_0_1_n_n : DotDims S2000x64 S64x2 S2000x2 where
  lhsContracting := [1]
  rhsContracting := [0]
  lhsNonContracting := [0]
  rhsNonContracting := [1]
  lhsBatch := []
  rhsBatch := []
  wf := dot_S2000x64_S64x2_S2000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S64x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v16) S1x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S2000x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩
abbrev S100000x2 : Shape := ⟨2, ![100000, 2]⟩
abbrev S1x2 : Shape := ⟨2, ![1, 2]⟩

abbrev nBuf : Space → Nat
  | .hbm => 87
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x2, .f32⟩
  | .hbm, ⟨6, _⟩ => ⟨S2, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S100000x1, .f32⟩
  | .hbm, ⟨49, _⟩ => ⟨S100000x64, .f32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S_, .f32⟩
  | .hbm, ⟨55, _⟩ => ⟨S100000x64, .f32⟩
  | .hbm, ⟨56, _⟩ => ⟨S100000x64, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x64, .f32⟩
  | .hbm, ⟨70, _⟩ => ⟨S_, .f32⟩
  | .hbm, ⟨71, _⟩ => ⟨S100000x64, .f32⟩
  | .hbm, ⟨72, _⟩ => ⟨S1600000x1, .i32⟩
  | .hbm, ⟨73, _⟩ => ⟨S100000x64, .f32⟩
  | .hbm, ⟨74, _⟩ => ⟨S100000x1, .f32⟩
  | .hbm, ⟨75, _⟩ => ⟨S100000x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S_, .f32⟩
  | .hbm, ⟨81, _⟩ => ⟨S100000x64, .f32⟩
  | .hbm, ⟨82, _⟩ => ⟨S100000x64, .f32⟩
  | .hbm, ⟨83, _⟩ => ⟨S100000x2, .f32⟩
  | .hbm, ⟨84, _⟩ => ⟨S1x2, .f32⟩
  | .hbm, ⟨85, _⟩ => ⟨S100000x2, .f32⟩
  | .hbm, ⟨86, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_cst_3 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call2_cst : Ref sig .tc := ⟨.hbm, 54, rfl⟩
abbrev main_call2_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_7 : Ref sig .tc := ⟨.hbm, 61, rfl⟩
abbrev main_v37 : Ref sig .tc := ⟨.hbm, 62, rfl⟩
abbrev main_v38 : Ref sig .tc := ⟨.hbm, 63, rfl⟩
abbrev main_c_8 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call3_cst : Ref sig .tc := ⟨.hbm, 80, rfl⟩
abbrev main_call3_v0 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x2_S100000x2_1_0_0_1_n_n_wf : DotDims.WF S100000x64 S64x2 S100000x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.KernelRun.lean ====
/-
  The idealized kernel's run with its result named.

  @main is ten segments: five stretches of host operations, the first kernel, a stretch, the second kernel, a stretch, the
  third kernel. The contents of the TensorCore's buffers at each boundary are a fold from the launch memory: a stretch
  applies its operations, a kernel replaces its arrays by what its write-backs leave. Every weakly fair execution ends
  with each unscoped buffer at the last boundary's contents; read at the result buffer this names the result, and read
  at an argument it is the launch contents, since nothing writes an argument.
-/
import proofs.«165562_j10273561772520_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v39) = W10 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v39 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.RunValue

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«165562_j10273561772520_1_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.LibLayers.lean ====
/-
  The layers of a graph autoencoder as functions of whole matrices over the extended reals, entry by entry.

  Three primitives build every layer: the matrix product (entry (p, q) is the sum over k of a (p, k) · w (k, q)), the clamp
  below at zero (entry by entry the larger of the entry and the value of the all-zero float word), and the addition of a
  one-row matrix to every row. A graph-convolution layer is `clamp (adj · s)`; a dense layer is `a · w + row`.

  Each primitive has two spellings that denote it: a vector unit's (a product accumulated into zeros, whatever format its
  operands were narrowed to, since narrowing is the identity on exact values; a maximum against a splat zero; a row repeated
  down the rows) and a host's (a contraction of the second axis with the first; a maximum against a broadcast scalar zero; a
  vector broadcast to one row and then down the rows).

  A band of T consecutive rows of a layer's output is the same layer applied to that band of rows of its left operand:
  the product, the clamp and the row addition all act row by row. This is what lets a kernel that walks a matrix in bands
  of rows be read as one function of the whole matrix.
-/
import proofs.«165562_j10273561772520_1_alg».proof.Proof.LibMatProd

noncomputable section

namespace Cert.Layers

open Idealize.ShloMosaic Idealize.ShloMosaic.ValueIdx Cert.LibPlainDot Cert.LibMatProd

/-- A matrix of extended reals with M rows and N columns. -/
abbrev Mat (M N : ℕ) : Type := (⟨2, ![M, N]⟩ : Shape).Idx → EReal

/-- Entry by entry, the larger of the entry and the value of the all-zero float word. -/
def clamp {M N : ℕ} (a : Mat M N) : Mat M N := fun i => max (a i) (Ideal.ofBits .f32 0x00000000#32)

/-- A one-row matrix added to every row: entry (p, q) is a (p, q) + row (0, q). -/
def addRow {M N : ℕ} (a : Mat M N) (row : Mat 1 N) : Mat M N := fun i => a i + row (ix2 (0 : Fin 1) (i 1))

/-- A dense layer: a · w, plus the one-row matrix on every row. -/
def dense {M K N : ℕ} (a : Mat M K) (w : Mat K N) (row : Mat 1 N) : Mat M N := addRow (matProd a w) row

/-- A graph-convolution layer: the aggregation adj · s clamped below at zero. -/
def conv {M K N : ℕ} (adj : Mat M K) (s : Mat K N) : Mat M N := clamp (matProd adj s)

/-- The decoder: three dense layers, the first two clamped below at zero. -/
def decoder {M A B C D : ℕ} (z : Mat M A) (w1 : Mat A B) (b1 : Mat 1 B) (w2 : Mat B C) (b2 : Mat 1 C) (w3 : Mat C D) (b3 : Mat 1 D) :
    Mat M D :=
  dense (clamp (dense (clamp (dense z w1 b1)) w2 b2)) w3 b3

/-! ## A vector unit's spellings -/

/-- A matrix unit's product accumulated into zeros is the matrix product, whatever the operands' formats. -/
theorem unit_prod {M K N : ℕ} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (a : FVec Ideal ⟨2, ![M, K]⟩ φ₁) (w : FVec Ideal ⟨2, ![K, N]⟩ φ₂) :
    matmul d none a w (constant ⟨2, ![M, N]⟩ .f32 0x00000000#32) = matProd (a : Mat M K) (w : Mat K N) := by
  funext j
  obtain ⟨p, q, rfl⟩ : ∃ (p : Fin M) (q : Fin N), j = ix2 p q := ⟨j 0, j 1, eq_ix2 j⟩
  rw [matProd_apply]
  refine (Ideal.matmul_constant_zero_apply d none a w (ix2 p q)).trans ?_
  exact plain_sum d h1 h2 h3 h4 h5 h6 a w p q

/-- A maximum against the splat of the zero word is the clamp. -/
theorem unit_clamp {M N : ℕ} (a : FVec Ideal ⟨2, ![M, N]⟩ .f32) :
    maximumf a (broadcast ⟨2, ![M, N]⟩ (Scalar.ofBits (F := Ideal) .f32 0x00000000#32)) = clamp (a : Mat M N) := rfl

/-- A one-row matrix, through an identity re-lay, repeated down the rows and added: the row addition. -/
theorem unit_addRow {M N : ℕ} (a : FVec Ideal ⟨2, ![M, N]⟩ .f32) (row : FVec Ideal ⟨2, ![1, N]⟩ .f32)
    (h2 : (⟨2, ![1, N]⟩ : Shape).ShapeCasts ⟨2, ![1, N]⟩) (hb : (⟨2, ![1, N]⟩ : Shape).Broadcasts ⟨2, ![M, N]⟩) :
    addf a (broadcastTo ⟨2, ![M, N]⟩ (shapeCast ⟨2, ![1, N]⟩ row h2) hb) = addRow (a : Mat M N) (row : Mat 1 N) := by
  funext j
  obtain ⟨p, q, rfl⟩ : ∃ (p : Fin M) (q : Fin N), j = ix2 p q := ⟨j 0, j 1, eq_ix2 j⟩
  rw [shapeCast_self, addf_apply, broadcastTo_1b_ab_apply]
  rfl

/-! ## A host's spellings -/

/-- A host contraction of the second axis with the first is the matrix product. -/
theorem host_prod {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (a : FVec Ideal ⟨2, ![M, K]⟩ .f32) (w : FVec Ideal ⟨2, ![K, N]⟩ .f32) :
    Host.dotGeneral (F := Ideal) d none a w = matProd (a : Mat M K) (w : Mat K N) :=
  host_dot_eq d h1 h2 h3 h4 h5 h6 a w

/-- A maximum against the broadcast scalar zero is the clamp. -/
theorem host_clamp {M N : ℕ} (a : FVec Ideal ⟨2, ![M, N]⟩ .f32) (h0 : (⟨0, ![]⟩ : Shape).BroadcastsInDim ⟨2, ![M, N]⟩ ![]) :
    maximumf a (broadcastInDim ⟨2, ![M, N]⟩ ![] h0 (constant (F := Ideal) ⟨0, ![]⟩ .f32 0x00000000#32)) = clamp (a : Mat M N) := by
  funext j
  have hz : broadcastInDim ⟨2, ![M, N]⟩ ![] h0 (constant (F := Ideal) ⟨0, ![]⟩ .f32 0x00000000#32) j
      = Ideal.ofBits .f32 0x00000000#32 :=
    (broadcastInDim_apply _ h0 _ _ (fun a => a.elim0) (fun ax => ax.elim0)).trans rfl
  rw [maximumf_apply, hz]
  rfl

/-- The one-row matrix that a vector re-laid as one row is: entry (0, q) is the vector's entry q. -/
def rowOf {N : ℕ} (b : (⟨1, ![N]⟩ : Shape).Idx → EReal) : Mat 1 N := fun i => b (ix1 (i 1))

/-- A vector broadcast to one row and then down the rows, added: the row addition of the vector as a row. -/
theorem host_addRow {M N : ℕ} (a : FVec Ideal ⟨2, ![M, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf a (broadcastInDim ⟨2, ![M, N]⟩ ![0, 1] hbc (broadcastInDim ⟨2, ![1, N]⟩ ![1] hr b)) = addRow (a : Mat M N) (rowOf b) := by
  funext j
  obtain ⟨p, q, rfl⟩ : ∃ (p : Fin M) (q : Fin N), j = ix2 p q := ⟨j 0, j 1, eq_ix2 j⟩
  rw [addf_apply, bcast_1b_ab_apply, bcast_a_1a_apply]
  rfl

/-- A vector re-laid as one row by a reshape is the same one-row matrix. -/
theorem reshape_row {N : ℕ} (b : (⟨1, ![N]⟩ : Shape).Idx → EReal) (h : (⟨1, ![N]⟩ : Shape).ShapeCasts ⟨2, ![1, N]⟩) :
    shapeCast ⟨2, ![1, N]⟩ b h = rowOf b := by
  funext j
  obtain ⟨u, q, rfl⟩ : ∃ (u : Fin 1) (q : Fin N), j = ix2 u q := ⟨j 0, j 1, eq_ix2 j⟩
  exact shapeCast_a_1a_apply b h u q

/-! ## Bands of rows -/

/-- Rows r, …, r + T − 1 of a matrix. -/
def band {M N : ℕ} (T r : ℕ) (h : r + T ≤ M) (a : Mat M N) : Mat T N :=
  fun y => a (ix2 ⟨r + (y 0).val, by have := idx2_lt0 y; omega⟩ (y 1))

theorem band_prod {M K N : ℕ} (T r : ℕ) (h : r + T ≤ M) (a : Mat M K) (w : Mat K N) :
    matProd (band T r h a) w = band T r h (matProd a w) := rfl

theorem band_clamp {M N : ℕ} (T r : ℕ) (h : r + T ≤ M) (a : Mat M N) : clamp (band T r h a) = band T r h (clamp a) := rfl

theorem band_addRow {M N : ℕ} (T r : ℕ) (h : r + T ≤ M) (a : Mat M N) (row : Mat 1 N) :
    addRow (band T r h a) row = band T r h (addRow a row) := rfl

theorem band_conv {M K N : ℕ} (T r : ℕ) (h : r + T ≤ M) (adj : Mat M K) (s : Mat K N) :
    conv (band T r h adj) s = band T r h (conv adj s) := rfl

theorem band_dense {M K N : ℕ} (T r : ℕ) (h : r + T ≤ M) (a : Mat M K) (w : Mat K N) (row : Mat 1 N) :
    dense (band T r h a) w row = band T r h (dense a w row) := rfl

theorem band_decoder {M A B C D : ℕ} (T r : ℕ) (h : r + T ≤ M) (z : Mat M A) (w1 : Mat A B) (b1 : Mat 1 B) (w2 : Mat B C)
    (b2 : Mat 1 C) (w3 : Mat C D) (b3 : Mat 1 D) :
    decoder (band T r h z) w1 b1 w2 b2 w3 b3 = band T r h (decoder z w1 b1 w2 b2 w3 b3) := rfl

/-- The band's entry at y is the matrix's entry at the index whose row is r plus y's row and whose column is y's. -/
theorem band_apply {M N : ℕ} (T r : ℕ) (h : r + T ≤ M) (a : Mat M N) (y : (⟨2, ![T, N]⟩ : Shape).Idx)
    (i : (⟨2, ![M, N]⟩ : Shape).Idx) (hi0 : (i 0).val = r + (y 0).val) (hi1 : (i 1).val = (y 1).val) :
    band T r h a y = a i := by
  refine congrArg a (funext fun d => Fin.ext ?_)
  match d with
  | ⟨0, _⟩ => exact hi0.symm
  | ⟨1, _⟩ => exact hi1.symm

/-- The band of all the rows is the matrix. -/
theorem band_all {M N : ℕ} (h : 0 + M ≤ M) (a : Mat M N) : band M 0 h a = a :=
  funext fun y => band_apply M 0 h a y y (Nat.zero_add _).symm rfl

end Cert.Layers

end
-- ==== Proof.LibRowScale.lean ====
/-
  A matrix scaled row by row: entry (p, q) of `rowScale x s` is x (p, q) · s (p, 0), where s is a one-column matrix.
  Two spellings of it: a vector unit's product of x with the column repeated along the rows, and a host product of x
  with the column broadcast along the rows. A band of consecutive rows of a row-scaled matrix is the band of x scaled
  by the band of s. Also: a vector viewed as one column by a reshape is the vector broadcast into one column, and a
  vector viewed as one row by a reshape is the vector broadcast into one row.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowScale

open Idealize.ShloMosaic Idealize.ShloMosaic.ValueIdx

/-- Entry (p, q) of x scaled row by row by the one-column s: x (p, q) · s (p, 0). -/
def rowScale {M N : ℕ} (x : FVec Ideal ⟨2, ![M, N]⟩ .f32) (s : FVec Ideal ⟨2, ![M, 1]⟩ .f32) : FVec Ideal ⟨2, ![M, N]⟩ .f32 :=
  fun i => x i * s (ix2 (n0 := M) (n1 := 1) (i 0) (0 : Fin 1))

theorem rowScale_apply {M N : ℕ} (x : FVec Ideal ⟨2, ![M, N]⟩ .f32) (s : FVec Ideal ⟨2, ![M, 1]⟩ .f32) (p : Fin M) (q : Fin N) :
    rowScale x s (ix2 p q) = x (ix2 p q) * s (ix2 p (0 : Fin 1)) := rfl

/-- A one-column matrix repeated along the rows reads, at (p, c), its entry (p, 0). -/
theorem broadcastTo_col_apply {M N : ℕ} (v : FVec Ideal ⟨2, ![M, 1]⟩ .f32) (h : (⟨2, ![M, 1]⟩ : Shape).Broadcasts ⟨2, ![M, N]⟩)
    (p : Fin M) (c : Fin N) : broadcastTo ⟨2, ![M, N]⟩ v h (ix2 p c) = v (ix2 p (0 : Fin 1)) := by
  refine broadcastTo_apply v h (ix2 p c) (ix2 p (0 : Fin 1)) fun ax => ?_
  match ax with
  | ⟨0, _⟩ =>
    show p.val = if M = 1 then 0 else p.val
    split
    · have := p.isLt; omega
    · rfl
  | ⟨1, _⟩ => rfl

/-- A one-column matrix broadcast along the rows by the host reads, at (p, c), its entry (p, 0). -/
theorem broadcastInDim_col_apply {M N : ℕ} (v : FVec Ideal ⟨2, ![M, 1]⟩ .f32)
    (h : (⟨2, ![M, 1]⟩ : Shape).BroadcastsInDim ⟨2, ![M, N]⟩ ![0, 1]) (p : Fin M) (c : Fin N) :
    broadcastInDim ⟨2, ![M, N]⟩ ![0, 1] h v (ix2 p c) = v (ix2 p (0 : Fin 1)) :=
  broadcastInDim_apply _ h v _ (ix2 p (0 : Fin 1)) (fun ax => match ax with
    | ⟨0, _⟩ => by
      show p.val = if M = 1 then 0 else p.val
      split
      · have := p.isLt; omega
      · rfl
    | ⟨1, _⟩ => by
      show (0 : ℕ) = if (1 : ℕ) = 1 then 0 else c.val
      rw [if_pos rfl])

/-- The vector unit's spelling: x and s each through an identity re-lay, s repeated along the rows, the product. -/
theorem mul_broadcastTo_eq {M N : ℕ} (x : FVec Ideal ⟨2, ![M, N]⟩ .f32) (s : FVec Ideal ⟨2, ![M, 1]⟩ .f32)
    (h1 : (⟨2, ![M, N]⟩ : Shape).ShapeCasts ⟨2, ![M, N]⟩) (h2 : (⟨2, ![M, 1]⟩ : Shape).ShapeCasts ⟨2, ![M, 1]⟩)
    (hb : (⟨2, ![M, 1]⟩ : Shape).Broadcasts ⟨2, ![M, N]⟩) :
    mulf (shapeCast ⟨2, ![M, N]⟩ x h1) (broadcastTo ⟨2, ![M, N]⟩ (shapeCast ⟨2, ![M, 1]⟩ s h2) hb) = rowScale x s := by
  funext j
  obtain ⟨p, q, rfl⟩ : ∃ (p : Fin M) (q : Fin N), j = ix2 p q := ⟨j 0, j 1, eq_ix2 j⟩
  rw [shapeCast_self, shapeCast_self, mulf_apply, broadcastTo_col_apply, rowScale_apply]

/-- The host's spelling: the product of x with s broadcast along the rows. -/
theorem mul_broadcastInDim_eq {M N : ℕ} (x : FVec Ideal ⟨2, ![M, N]⟩ .f32) (s : FVec Ideal ⟨2, ![M, 1]⟩ .f32)
    (hb : (⟨2, ![M, 1]⟩ : Shape).BroadcastsInDim ⟨2, ![M, N]⟩ ![0, 1]) :
    mulf x (broadcastInDim ⟨2, ![M, N]⟩ ![0, 1] hb s) = rowScale x s := by
  funext j
  obtain ⟨p, q, rfl⟩ : ∃ (p : Fin M) (q : Fin N), j = ix2 p q := ⟨j 0, j 1, eq_ix2 j⟩
  rw [mulf_apply, broadcastInDim_col_apply, rowScale_apply]

/-- Rows r, …, r + T − 1 of a row-scaled matrix: when x holds those rows of X and s those rows of S, the entry of
    `rowScale x s` at y is the entry of `rowScale X S` at the index whose row is r plus y's row and whose column is y's. -/
theorem rowScale_rows {M N T : ℕ} (X : FVec Ideal ⟨2, ![M, N]⟩ .f32) (S : FVec Ideal ⟨2, ![M, 1]⟩ .f32)
    (x : FVec Ideal ⟨2, ![T, N]⟩ .f32) (s : FVec Ideal ⟨2, ![T, 1]⟩ .f32) (r : ℕ)
    (hx : ∀ (p : Fin T) (q : Fin N) (hp : r + p.val < M), x (ix2 p q) = X (ix2 ⟨r + p.val, hp⟩ q))
    (hs : ∀ (p : Fin T) (hp : r + p.val < M), s (ix2 p (0 : Fin 1)) = S (ix2 ⟨r + p.val, hp⟩ (0 : Fin 1)))
    (y : (⟨2, ![T, N]⟩ : Shape).Idx) (i : (⟨2, ![M, N]⟩ : Shape).Idx)
    (hi0 : (i 0).val = r + (y 0).val) (hi1 : (i 1).val = (y 1).val) :
    rowScale x s y = rowScale X S i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [rowScale_apply, rowScale_apply, hx p q' (h0 ▸ p'.isLt), hs p (h0 ▸ p'.isLt), ← hp']

/-- A vector re-laid as one column is the vector broadcast into one column. -/
theorem col_cast_eq_bcast {a : ℕ} {α : Type} (v : (⟨1, ![a]⟩ : Shape).Idx → α) (hc : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ v hc = broadcastInDim ⟨2, ![a, 1]⟩ ![0] hb v := by
  funext j
  obtain ⟨i, u, rfl⟩ : ∃ (i : Fin a) (u : Fin 1), j = ix2 i u := ⟨j 0, j 1, eq_ix2 j⟩
  have e1 : shapeCast ⟨2, ![a, 1]⟩ v hc (ix2 i u) = v (ix1 i) :=
    shapeCast_apply v hc _ _ (by
      have hu : u.val = 0 := by omega
      rw [Shape.rowMajor_val_two, Shape.rowMajor_val_one]
      show i.val = i.val * 1 + u.val
      rw [hu, Nat.mul_one, Nat.add_zero])
  have e2 : broadcastInDim ⟨2, ![a, 1]⟩ ![0] hb v (ix2 i u) = v (ix1 i) :=
    broadcastInDim_apply _ hb v _ (ix1 i) (fun ax => match ax with
      | ⟨0, _⟩ => by
        show i.val = if a = 1 then 0 else i.val
        split
        · have := i.isLt; omega
        · rfl)
  rw [e1, e2]

/-- A vector re-laid as one row is the vector broadcast into one row. -/
theorem row_cast_eq_bcast {a : ℕ} {α : Type} (v : (⟨1, ![a]⟩ : Shape).Idx → α) (hc : (⟨1, ![a]⟩ : Shape).ShapeCasts ⟨2, ![1, a]⟩)
    (hb : (⟨1, ![a]⟩ : Shape).BroadcastsInDim ⟨2, ![1, a]⟩ ![1]) :
    shapeCast ⟨2, ![1, a]⟩ v hc = broadcastInDim ⟨2, ![1, a]⟩ ![1] hb v := by
  funext j
  obtain ⟨u, i, rfl⟩ : ∃ (u : Fin 1) (i : Fin a), j = ix2 u i := ⟨j 0, j 1, eq_ix2 j⟩
  have e1 : shapeCast ⟨2, ![1, a]⟩ v hc (ix2 u i) = v (ix1 i) :=
    shapeCast_apply v hc _ _ (by
      have hu : u.val = 0 := by omega
      rw [Shape.rowMajor_val_two, Shape.rowMajor_val_one]
      show i.val = u.val * a + i.val
      rw [hu, Nat.zero_mul, Nat.zero_add])
  have e2 : broadcastInDim ⟨2, ![1, a]⟩ ![1] hb v (ix2 u i) = v (ix1 i) :=
    broadcastInDim_apply _ hb v _ (ix1 i) (fun ax => match ax with
      | ⟨0, _⟩ => by
        show i.val = if a = 1 then 0 else i.val
        split
        · have := i.isLt; omega
        · rfl)
  rw [e1, e2]

end Cert.LibRowScale

end
-- ==== Proof.LibGraphStages.lean ====
/-
  The dense stages of a two-layer graph convolution with a linear head, as functions of whole matrices over the
  extended reals, entry by entry.

  Two building blocks. `scaledProd x s w` scales row p of x by the one-column factor s (p, 0) and multiplies by w:
  entry (p, q) is the sum over k of (x (p, k) · s (p, 0)) · w (k, q). `activate a s b` is what follows an aggregation:
  entry (p, q) is the larger of a (p, q) · s (p, 0) + b (0, q) and zero. The first stage is `scaledProd` of the node
  features; the second is `scaledProd` of an activation; the head is an activation times the head's weights plus a
  one-row bias on every row.

  Each block acts row by row, so a band of consecutive rows of a stage's output is the same stage applied to that band
  of its row-indexed operands. Each block has a vector unit's spelling (identity re-lays, a column repeated along the
  rows, a row repeated down the rows, a maximum against a splat zero, a product of operands narrowed to bf16 accumulated
  into zeros) and a host's spelling (broadcasts along an axis, a maximum against a broadcast scalar zero, a contraction
  of the second axis with the first); both denote the block.
-/
import proofs.«165562_j10273561772520_1_alg».proof.Proof.LibLayers
import proofs.«165562_j10273561772520_1_alg».proof.Proof.LibRowScale

noncomputable section

namespace Cert.GraphStages

open Idealize.ShloMosaic Idealize.ShloMosaic.ValueIdx Cert.LibPlainDot Cert.LibMatProd Cert.Layers Cert.LibRowScale

/-- Row p of x scaled by s (p, 0), then the product with w. -/
def scaledProd {M K N : ℕ} (x : Mat M K) (s : Mat M 1) (w : Mat K N) : Mat M N := matProd (rowScale x s) w

/-- Row p of a scaled by s (p, 0), the one-row b added to every row, clamped below at zero. -/
def activate {M N : ℕ} (a : Mat M N) (s : Mat M 1) (b : Mat 1 N) : Mat M N := clamp (addRow (rowScale a s) b)

/-- The second stage: the activation of an aggregation, rows scaled again, times the next weights. -/
def hiddenStage {M K N : ℕ} (a : Mat M K) (sIn : Mat M 1) (b : Mat 1 K) (sOut : Mat M 1) (w : Mat K N) : Mat M N :=
  scaledProd (activate a sIn b) sOut w

/-- The head: the activation of an aggregation times the head's weights, plus the head's bias on every row. -/
def headStage {M K N : ℕ} (a : Mat M K) (sIn : Mat M 1) (b : Mat 1 K) (w : Mat K N) (bm : Mat 1 N) : Mat M N :=
  dense (activate a sIn b) w bm

/-! ## Bands of rows -/

theorem band_rowScale {M N : ℕ} (T r : ℕ) (h : r + T ≤ M) (x : Mat M N) (s : Mat M 1) :
    rowScale (band T r h x) (band T r h s) = band T r h (rowScale x s) := rfl

theorem band_scaledProd {M K N : ℕ} (T r : ℕ) (h : r + T ≤ M) (x : Mat M K) (s : Mat M 1) (w : Mat K N) :
    scaledProd (band T r h x) (band T r h s) w = band T r h (scaledProd x s w) := rfl

theorem band_activate {M N : ℕ} (T r : ℕ) (h : r + T ≤ M) (a : Mat M N) (s : Mat M 1) (b : Mat 1 N) :
    activate (band T r h a) (band T r h s) b = band T r h (activate a s b) := rfl

theorem band_hiddenStage {M K N : ℕ} (T r : ℕ) (h : r + T ≤ M) (a : Mat M K) (sIn : Mat M 1) (b : Mat 1 K) (sOut : Mat M 1)
    (w : Mat K N) :
    hiddenStage (band T r h a) (band T r h sIn) b (band T r h sOut) w = band T r h (hiddenStage a sIn b sOut w) := rfl

theorem band_headStage {M K N : ℕ} (T r : ℕ) (h : r + T ≤ M) (a : Mat M K) (sIn : Mat M 1) (b : Mat 1 K) (w : Mat K N)
    (bm : Mat 1 N) :
    headStage (band T r h a) (band T r h sIn) b w bm = band T r h (headStage a sIn b w bm) := rfl

/-! ## A vector unit's spellings -/

/-- x times the one-column s (through an identity re-lay) repeated along the rows: the row scaling. -/
theorem unit_scale {M N : ℕ} (x : FVec Ideal ⟨2, ![M, N]⟩ .f32) (s : FVec Ideal ⟨2, ![M, 1]⟩ .f32)
    (h2 : (⟨2, ![M, 1]⟩ : Shape).ShapeCasts ⟨2, ![M, 1]⟩) (hb : (⟨2, ![M, 1]⟩ : Shape).Broadcasts ⟨2, ![M, N]⟩) :
    mulf x (broadcastTo ⟨2, ![M, N]⟩ (shapeCast ⟨2, ![M, 1]⟩ s h2) hb) = rowScale x s := by
  funext j
  obtain ⟨p, q, rfl⟩ : ∃ (p : Fin M) (q : Fin N), j = ix2 p q := ⟨j 0, j 1, eq_ix2 j⟩
  rw [shapeCast_self, mulf_apply, broadcastTo_col_apply, rowScale_apply]

/-- The activation as a vector unit spells it: a and s and b each through an identity re-lay, s repeated along the
    rows and multiplied in, b repeated down the rows and added, the maximum against the splat zero. -/
theorem unit_activate {M N : ℕ} (a : FVec Ideal ⟨2, ![M, N]⟩ .f32) (s : FVec Ideal ⟨2, ![M, 1]⟩ .f32)
    (b : FVec Ideal ⟨2, ![1, N]⟩ .f32)
    (h1 : (⟨2, ![M, N]⟩ : Shape).ShapeCasts ⟨2, ![M, N]⟩) (h2 : (⟨2, ![M, 1]⟩ : Shape).ShapeCasts ⟨2, ![M, 1]⟩)
    (hb : (⟨2, ![M, 1]⟩ : Shape).Broadcasts ⟨2, ![M, N]⟩)
    (h3 : (⟨2, ![1, N]⟩ : Shape).ShapeCasts ⟨2, ![1, N]⟩) (hr : (⟨2, ![1, N]⟩ : Shape).Broadcasts ⟨2, ![M, N]⟩) :
    maximumf (addf (mulf (shapeCast ⟨2, ![M, N]⟩ a h1) (broadcastTo ⟨2, ![M, N]⟩ (shapeCast ⟨2, ![M, 1]⟩ s h2) hb))
        (broadcastTo ⟨2, ![M, N]⟩ (shapeCast ⟨2, ![1, N]⟩ b h3) hr))
      (broadcast ⟨2, ![M, N]⟩ (Scalar.ofBits (F := Ideal) .f32 0x00000000#32)) = activate a s b := by
  rw [mul_broadcastTo_eq a s h1 h2 hb, unit_addRow (rowScale a s) b h3 hr, unit_clamp]
  rfl

/-! ## A host's spellings -/

/-- A one-row matrix broadcast down the rows and added: the row addition. -/
theorem host_addRow_mat {M N : ℕ} (a : FVec Ideal ⟨2, ![M, N]⟩ .f32) (row : FVec Ideal ⟨2, ![1, N]⟩ .f32)
    (hbc : (⟨2, ![1, N]⟩ : Shape).BroadcastsInDim ⟨2, ![M, N]⟩ ![0, 1]) :
    addf a (broadcastInDim ⟨2, ![M, N]⟩ ![0, 1] hbc row) = addRow (a : Mat M N) (row : Mat 1 N) := by
  funext j
  obtain ⟨p, q, rfl⟩ : ∃ (p : Fin M) (q : Fin N), j = ix2 p q := ⟨j 0, j 1, eq_ix2 j⟩
  rw [addf_apply, bcast_1b_ab_apply]
  rfl

/-- The activation as a host spells it. -/
theorem host_activate {M N : ℕ} (a : FVec Ideal ⟨2, ![M, N]⟩ .f32) (s : FVec Ideal ⟨2, ![M, 1]⟩ .f32)
    (b : FVec Ideal ⟨2, ![1, N]⟩ .f32)
    (hs : (⟨2, ![M, 1]⟩ : Shape).BroadcastsInDim ⟨2, ![M, N]⟩ ![0, 1])
    (hbc : (⟨2, ![1, N]⟩ : Shape).BroadcastsInDim ⟨2, ![M, N]⟩ ![0, 1])
    (h0 : (⟨0, ![]⟩ : Shape).BroadcastsInDim ⟨2, ![M, N]⟩ ![]) :
    maximumf (addf (mulf a (broadcastInDim ⟨2, ![M, N]⟩ ![0, 1] hs s)) (broadcastInDim ⟨2, ![M, N]⟩ ![0, 1] hbc b))
      (broadcastInDim ⟨2, ![M, N]⟩ ![] h0 (constant (F := Ideal) ⟨0, ![]⟩ .f32 0x00000000#32)) = activate a s b := by
  rw [mul_broadcastInDim_eq a s hs, host_addRow_mat (rowScale a s) b hbc, host_clamp]
  rfl

/-- The scaled product as a host spells it: x times s broadcast along the rows, contracted with w. -/
theorem host_scaledProd {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (s : FVec Ideal ⟨2, ![M, 1]⟩ .f32) (w : FVec Ideal ⟨2, ![K, N]⟩ .f32)
    (hs : (⟨2, ![M, 1]⟩ : Shape).BroadcastsInDim ⟨2, ![M, K]⟩ ![0, 1]) :
    Host.dotGeneral (F := Ideal) d none (mulf x (broadcastInDim ⟨2, ![M, K]⟩ ![0, 1] hs s)) w = scaledProd x s w := by
  rw [mul_broadcastInDim_eq x s hs, host_prod d h1 h2 h3 h4 h5 h6]
  rfl

/-- The scaled product as a vector unit spells it: x times s repeated along the rows, narrowed to bf16, times w narrowed
    to bf16, accumulated into zeros. -/
theorem unit_scaledProd {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (s : FVec Ideal ⟨2, ![M, 1]⟩ .f32) (w : FVec Ideal ⟨2, ![K, N]⟩ .f32)
    (hc : (⟨2, ![M, 1]⟩ : Shape).ShapeCasts ⟨2, ![M, 1]⟩) (hb : (⟨2, ![M, 1]⟩ : Shape).Broadcasts ⟨2, ![M, K]⟩)
    (hlt : FTy.bf16.bits < FTy.f32.bits) :
    matmul d none (truncf .bf16 (mulf x (broadcastTo ⟨2, ![M, K]⟩ (shapeCast ⟨2, ![M, 1]⟩ s hc) hb)) hlt) (truncf .bf16 w hlt)
      (constant ⟨2, ![M, N]⟩ .f32 0x00000000#32) = scaledProd x s w := by
  rw [matmul_eq d h1 h2 h3 h4 h5 h6, unit_scale x s hc hb]
  rfl

end Cert.GraphStages

end
-- ==== Proof.KernelBody.lean ====
/-
  What each of the three kernel bodies computes from the blocks it loads, at exact arithmetic.

  The first body multiplies its block of node features, rows scaled by its block of the out-degree factor, by the whole
  first weight matrix. The second scales its block of aggregated features by its block of the in-degree factor, adds the
  bias row, clamps at zero, scales the rows by the out-degree factor and multiplies by the second weight matrix. The
  third does the same scaling, bias and clamp, multiplies by the head's weights and adds the head's bias row. Narrowing
  an operand to bf16 changes nothing on exact values, and accumulating into zeros adds nothing, so each body's stored
  value is the corresponding stage of the matrices it loaded.
-/
import proofs.«165562_j10273561772520_1_alg».proof.Proof.Gen.KernelIdeal.Skeleton
import proofs.«165562_j10273561772520_1_alg».proof.Proof.LibGraphStages

noncomputable section

namespace Cert.KernelIdeal.Body

open Idealize.ShloMosaic Cert.KernelIdeal Cert.KernelIdeal.Gen Cert.GraphStages Cert.Layers

/-- The first body stores the scaled product of its blocks. -/
theorem first_eq (x : Vec Ideal S2000x128 .f32) (s : Vec Ideal S2000x1 .f32) (w : Vec Ideal S128x64 .f32) :
    k0_pay1 (F := Ideal) x s w = scaledProd (x : Mat 2000 128) (s : Mat 2000 1) (w : Mat 128 64) := by
  unfold k0_pay1
  exact unit_scaledProd dot_S2000x128_S128x64_S2000x64_1_0_0_1_n_n rfl rfl rfl rfl rfl rfl x s w
    shapeCasts_S2000x1_S2000x1 broadcasts_S2000x1_S2000x128 bitsLt_bf16_f32

/-- The second body stores the second stage of its blocks. -/
theorem second_eq (a : Vec Ideal S2000x64 .f32) (sIn : Vec Ideal S2000x1 .f32) (b : Vec Ideal S1x64 .f32)
    (sOut : Vec Ideal S2000x1 .f32) (w : Vec Ideal S64x64 .f32) :
    k1_pay1 (F := Ideal) a sIn b sOut w
      = hiddenStage (a : Mat 2000 64) (sIn : Mat 2000 1) (b : Mat 1 64) (sOut : Mat 2000 1) (w : Mat 64 64) := by
  unfold k1_pay1
  dsimp only
  rw [unit_activate (M := 2000) (N := 64) a sIn b shapeCasts_S2000x64_S2000x64 shapeCasts_S2000x1_S2000x1
    broadcasts_S2000x1_S2000x64 shapeCasts_S1x64_S1x64 broadcasts_S1x64_S2000x64]
  exact unit_scaledProd dot_S2000x64_S64x64_S2000x64_1_0_0_1_n_n rfl rfl rfl rfl rfl rfl (activate a sIn b) sOut w
    shapeCasts_S2000x1_S2000x1 broadcasts_S2000x1_S2000x64 bitsLt_bf16_f32

/-- The third body stores the head of its blocks. -/
theorem third_eq (a : Vec Ideal S2000x64 .f32) (sIn : Vec Ideal S2000x1 .f32) (b : Vec Ideal S1x64 .f32)
    (w : Vec Ideal S64x2 .f32) (bm : Vec Ideal S1x2 .f32) :
    k2_pay1 (F := Ideal) a sIn b w bm
      = headStage (a : Mat 2000 64) (sIn : Mat 2000 1) (b : Mat 1 64) (w : Mat 64 2) (bm : Mat 1 2) := by
  unfold k2_pay1
  dsimp only
  rw [unit_activate (M := 2000) (N := 64) a sIn b shapeCasts_S2000x64_S2000x64 shapeCasts_S2000x1_S2000x1
    broadcasts_S2000x1_S2000x64 shapeCasts_S1x64_S1x64 broadcasts_S1x64_S2000x64,
    LibMatProd.matmul_eq dot_S2000x64_S64x2_S2000x2_1_0_0_1_n_n rfl rfl rfl rfl rfl rfl (activate a sIn b) w bitsLt_bf16_f32,
    unit_addRow (M := 2000) (N := 2) _ bm shapeCasts_S1x2_S1x2 broadcasts_S1x2_S2000x2]
  rfl

end Cert.KernelIdeal.Body

end
-- ==== Proof.Blocks0.lean ====
/-
  The first kernel, from its blocks to its whole output array.

  The grid has 50 points; point t loads rows 2000 t … 2000 t + 1999 of the node features and of the out-degree factor,
  and the whole first weight matrix, and writes rows 2000 t … 2000 t + 1999 of the output. The scaled product acts row
  by row, so what point t writes is that band of rows of the scaled product of the whole arrays; the 50 bands tile the
  100000 rows, so the output array ends holding the scaled product of the arrays the kernel found.
-/
import proofs.«165562_j10273561772520_1_alg».proof.Proof.Gen.KernelIdeal.Frame
import proofs.«165562_j10273561772520_1_alg».proof.Proof.KernelBody

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.GraphStages Cert.Layers

variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at point t: the row-tiled windows at block row t, the weights at the origin. -/
theorem points0 : ∀ t : Fin cfg0.N, t.val < 50
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block row of the output is some point's. -/
theorem onto0 : ∀ q : Fin 50, ∃ t : Fin cfg0.N, win0_3.index t (0 : Fin 2) = q.val ∧ win0_3.index t (1 : Fin 2) = 0 :=
  (by decide +kernel : ∀ q : Fin 50, ∃ t : Fin grid0.N, win0_3.index t (0 : Fin 2) = q.val ∧ win0_3.index t (1 : Fin 2) = 0)

theorem rows_le {t : ℕ} (h : t < 50) : 2000 * t + 2000 ≤ 100000 := by omega

/-- The features' block at point t is the band of rows 2000 t … of the features. -/
theorem features_block (c : Dev nD) (t : Fin cfg0.N) :
    (iblk0 V c 0 t : Mat 2000 128) = band 2000 (2000 * t.val) (rows_le (points0 t).1) (V c main_arg0 : Mat 100000 128) := by
  obtain ⟨-, e0, e1, -⟩ := points0 t
  funext y
  show V c main_arg0 (((cfg0.win 0).blk t).view.emb y) = V c main_arg0 (ix2 ⟨2000 * t.val + (y 0).val, _⟩ (y 1))
  refine congrArg (V c main_arg0) (funext fun a => Fin.ext ?_)
  match a with
  | ⟨0, _⟩ => show win0_0.index t (0 : Fin 2) * 2000 + 1 * (y 0).val = 2000 * t.val + (y 0).val; omega
  | ⟨1, _⟩ => show win0_0.index t (1 : Fin 2) * 128 + 1 * (y 1).val = (y 1).val; omega

/-- The factor's block at point t is the band of rows 2000 t … of the one-column factor. -/
theorem factor_block (c : Dev nD) (t : Fin cfg0.N) :
    (iblk0 V c 1 t : Mat 2000 1) = band 2000 (2000 * t.val) (rows_le (points0 t).1) (V c main_v12 : Mat 100000 1) := by
  obtain ⟨-, -, -, e0, e1, -⟩ := points0 t
  funext y
  show V c main_v12 (((cfg0.win 1).blk t).view.emb y) = V c main_v12 (ix2 ⟨2000 * t.val + (y 0).val, _⟩ (y 1))
  refine congrArg (V c main_v12) (funext fun a => Fin.ext ?_)
  match a with
  | ⟨0, _⟩ => show win0_1.index t (0 : Fin 2) * 2000 + 1 * (y 0).val = 2000 * t.val + (y 0).val; omega
  | ⟨1, _⟩ => show win0_1.index t (1 : Fin 2) * 1 + 1 * (y 1).val = (y 1).val; omega

/-- The weights' block at every point is the whole weight matrix. -/
theorem weights_block (c : Dev nD) (t : Fin cfg0.N) : (iblk0 V c 2 t : Mat 128 64) = (V c main_arg1 : Mat 128 64) := by
  obtain ⟨-, -, -, -, -, e0, e1, -⟩ := points0 t
  funext y
  show V c main_arg1 (((cfg0.win 2).blk t).view.emb y) = V c main_arg1 y
  refine congrArg (V c main_arg1) (funext fun a => Fin.ext ?_)
  match a with
  | ⟨0, _⟩ => show win0_2.index t (0 : Fin 2) * 128 + 1 * (y 0).val = (y 0).val; omega
  | ⟨1, _⟩ => show win0_2.index t (1 : Fin 2) * 64 + 1 * (y 1).val = (y 1).val; omega

/-- What point t writes back is its band of rows of the scaled product of the whole arrays. -/
theorem flushed0 (c : Dev nD) (t : Fin cfg0.N) :
    (dat0 V c).flushed 3 t = ((cfg0.win 3).blk t).view.read (Elt Ideal)
      (scaledProd (V c main_arg0 : Mat 100000 128) (V c main_v12 : Mat 100000 1) (V c main_arg1 : Mat 128 64)) := by
  show (cfg0.win 3).cut (grid0.coords t) ((dat0 V c).after 3 t) = _
  rw [after0_3]
  unfold out0_3
  rw [View.canon_unit_zero zero_offsets]
  simp only [View.ld_unit_zero (S := S2000x128) zero_offsets, View.ld_unit_zero (S := S2000x1) zero_offsets,
    View.ld_unit_zero (S := S128x64) zero_offsets]
  rw [Body.first_eq, features_block V c t, factor_block V c t, weights_block V c t, band_scaledProd]
  obtain ⟨-, -, -, -, -, -, -, e0, e1⟩ := points0 t
  funext j
  refine band_apply 2000 (2000 * t.val) _ _ j _ ?_ ?_
  · show win0_3.index t (0 : Fin 2) * 2000 + 1 * (j 0).val = 2000 * t.val + (j 0).val
    omega
  · show win0_3.index t (1 : Fin 2) * 64 + 1 * (j 1).val = (j 1).val
    omega

/-- An index of the output array is in point t's block iff each coordinate is in the block's range. -/
theorem mem_block0 (t : Fin cfg0.N) (i : S100000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v17).slice (win0_3.rect t)).set ↔ _
  rw [View.set_slice_whole, Rect.mem_set_unit]
  exact Iff.rfl

/-- Every index of the output array is in some point's block: row r is in block row r / 2000. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, q0, q1⟩ := onto0 ⟨(i 0).val / 2000, by omega⟩
  have q0' : win0_3.index t (0 : Fin 2) = (i 0).val / 2000 := q0
  refine ⟨t, flush0_3 t, ?_⟩
  rw [mem_block0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 64 ≤ (i 1).val ∧ (i 1).val < win0_3.index t (1 : Fin 2) * 64 + 64; omega

/-- The first kernel's output array after its run: the scaled product of the arrays it found. -/
theorem final0 (c : Dev nD) :
    (dat0 V c).arrAt 3 cfg0.N
      = scaledProd (V c main_arg0 : Mat 100000 128) (V c main_v12 : Mat 100000 1) (V c main_arg1 : Mat 128 64) :=
  (dat0 V c).arrAt_eq_of_cover 3 _ (fun t _ => flushed0 V c t) (cover0)

end Cert.KernelIdeal.Blocks

end
-- ==== Proof.Blocks1.lean ====
/-
  The second kernel, from its blocks to its whole output array.

  Point t of 50 loads rows 2000 t … 2000 t + 1999 of the aggregated features, of the in-degree factor and of the
  out-degree factor, and the whole bias row and second weight matrix, and writes the same rows of the output. The second
  stage acts row by row, so what point t writes is that band of rows of the second stage of the whole arrays; the bands
  tile the rows, so the output array ends holding the second stage of the arrays the kernel found.
-/
import proofs.«165562_j10273561772520_1_alg».proof.Proof.Blocks0

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.GraphStages Cert.Layers

variable (V : (c : Dev nD) → (b : Ref sig .tc) → Buf (Elt Ideal) ((c : Thread nD τ).loc b))

/-- Where each window's block sits at point t: the row-tiled windows at block row t, the others at the origin. -/
theorem points1 : ∀ t : Fin cfg1.N, t.val < 50
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every block row of the output is some point's. -/
theorem onto1 : ∀ q : Fin 50, ∃ t : Fin cfg1.N, win1_5.index t (0 : Fin 2) = q.val ∧ win1_5.index t (1 : Fin 2) = 0 :=
  (by decide +kernel : ∀ q : Fin 50, ∃ t : Fin grid1.N, win1_5.index t (0 : Fin 2) = q.val ∧ win1_5.index t (1 : Fin 2) = 0)

/-- The aggregated features' block at point t is their band of rows 2000 t …. -/
theorem aggregated_block1 (c : Dev nD) (t : Fin cfg1.N) :
    (iblk1 V c 0 t : Mat 2000 64) = band 2000 (2000 * t.val) (rows_le (points1 t).1) (V c main_v27 : Mat 100000 64) := by
  obtain ⟨-, e0, e1, -⟩ := points1 t
  funext y
  show V c main_v27 (((cfg1.win 0).blk t).view.emb y) = V c main_v27 (ix2 ⟨2000 * t.val + (y 0).val, _⟩ (y 1))
  refine congrArg (V c main_v27) (funext fun a => Fin.ext ?_)
  match a with
  | ⟨0, _⟩ => show win1_0.index t (0 : Fin 2) * 2000 + 1 * (y 0).val = 2000 * t.val + (y 0).val; omega
  | ⟨1, _⟩ => show win1_0.index t (1 : Fin 2) * 64 + 1 * (y 1).val = (y 1).val; omega

/-- The in-degree factor's block at point t is its band of rows. -/
theorem inFactor_block1 (c : Dev nD) (t : Fin cfg1.N) :
    (iblk1 V c 1 t : Mat 2000 1) = band 2000 (2000 * t.val) (rows_le (points1 t).1) (V c main_v13 : Mat 100000 1) := by
  obtain ⟨-, -, -, e0, e1, -⟩ := points1 t
  funext y
  show V c main_v13 (((cfg1.win 1).blk t).view.emb y) = V c main_v13 (ix2 ⟨2000 * t.val + (y 0).val, _⟩ (y 1))
  refine congrArg (V c main_v13) (funext fun a => Fin.ext ?_)
  match a with
  | ⟨0, _⟩ => show win1_1.index t (0 : Fin 2) * 2000 + 1 * (y 0).val = 2000 * t.val + (y 0).val; omega
  | ⟨1, _⟩ => show win1_1.index t (1 : Fin 2) * 1 + 1 * (y 1).val = (y 1).val; omega

/-- The bias row's block at every point is the whole row. -/
theorem bias_block1 (c : Dev nD) (t : Fin cfg1.N) : (iblk1 V c 2 t : Mat 1 64) = (V c main_v14 : Mat 1 64) := by
  obtain ⟨-, -, -, -, -, e0, e1, -⟩ := points1 t
  funext y
  show V c main_v14 (((cfg1.win 2).blk t).view.emb y) = V c main_v14 y
  refine congrArg (V c main_v14) (funext fun a => Fin.ext ?_)
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- The out-degree factor's block at point t is its band of rows. -/
theorem outFactor_block1 (c : Dev nD) (t : Fin cfg1.N) :
    (iblk1 V c 3 t : Mat 2000 1) = band 2000 (2000 * t.val) (rows_le (points1 t).1) (V c main_v12 : Mat 100000 1) := by
  obtain ⟨-, -, -, -, -, -, -, e0, e1, -⟩ := points1 t
  funext y
  show V c main_v12 (((cfg1.win 3).blk t).view.emb y) = V c main_v12 (ix2 ⟨2000 * t.val + (y 0).val, _⟩ (y 1))
  refine congrArg (V c main_v12) (funext fun a => Fin.ext ?_)
  match a with
  | ⟨0, _⟩ => show win1_3.index t (0 : Fin 2) * 2000 + 1 * (y 0).val = 2000 * t.val + (y 0).val; omega
  | ⟨1, _⟩ => show win1_3.index t (1 : Fin 2) * 1 + 1 * (y 1).val = (y 1).val; omega

/-- The weights' block at every point is the whole second weight matrix. -/
theorem weights_block1 (c : Dev nD) (t : Fin cfg1.N) : (iblk1 V c 4 t : Mat 64 64) = (V c main_arg3 : Mat 64 64) := by
  obtain ⟨-, -, -, -, -, -, -, -, -, e0, e1, -⟩ := points1 t
  funext y
  show V c main_arg3 (((cfg1.win 4).blk t).view.emb y) = V c main_arg3 y
  refine congrArg (V c main_arg3) (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- What point t writes back is its band of rows of the stage of the whole arrays. -/
theorem flushed1 (c : Dev nD) (t : Fin cfg1.N) :
    (dat1 V c).flushed 5 t = ((cfg1.win 5).blk t).view.read (Elt Ideal)
      (hiddenStage (V c main_v27 : Mat 100000 64) (V c main_v13 : Mat 100000 1) (V c main_v14 : Mat 1 64)
        (V c main_v12 : Mat 100000 1) (V c main_arg3 : Mat 64 64)) := by
  show (cfg1.win 5).cut (grid1.coords t) ((dat1 V c).after 5 t) = _
  rw [after1_5]
  unfold out1_5
  rw [View.canon_unit_zero zero_offsets]
  simp only [View.ld_unit_zero (S := S2000x64) zero_offsets, View.ld_unit_zero (S := S2000x1) zero_offsets, View.ld_unit_zero (S := S1x64) zero_offsets, View.ld_unit_zero (S := S64x64) zero_offsets]
  rw [Body.second_eq, aggregated_block1 V c t, inFactor_block1 V c t, bias_block1 V c t, outFactor_block1 V c t, weights_block1 V c t, band_hiddenStage]
  obtain ⟨-, -, -, -, -, -, -, -, -, -, -, e0, e1⟩ := points1 t
  funext j
  refine band_apply 2000 (2000 * t.val) _ _ j _ ?_ ?_
  · show win1_5.index t (0 : Fin 2) * 2000 + 1 * (j 0).val = 2000 * t.val + (j 0).val
    omega
  · show win1_5.index t (1 : Fin 2) * 64 + 1 * (j 1).val = (j 1).val
    omega

/-- An index of the output array is in point t's block iff each coordinate is in the block's range. -/
theorem mem_block1 (t : Fin cfg1.N) (i : S100000x64.Idx) :
    i ∈ ((cfg1.win 5).blk t).view.set ↔ ∀ a : Fin 2, win1_5.index t a * S2000x64.size a ≤ (i a).val
      ∧ (i a).val < win1_5.index t a * S2000x64.size a + S2000x64.size a := by
  show i ∈ ((View.whole main_v28).slice (win1_5.rect t)).set ↔ _
  rw [View.set_slice_whole, Rect.mem_set_unit]
  exact Iff.rfl

/-- Every index of the output array is in some point's block: row r is in block row r / 2000. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, q0, q1⟩ := onto1 ⟨(i 0).val / 2000, by omega⟩
  have q0' : win1_5.index t (0 : Fin 2) = (i 0).val / 2000 := q0
  refine ⟨t, flush1_5 t, ?_⟩
  rw [mem_block1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 64 ≤ (i 1).val ∧ (i 1).val < win1_5.index t (1 : Fin 2) * 64 + 64; omega

/-- The kernel's output array after its run: the stage of the arrays it found. -/
theorem final1 (c : Dev nD) :
    (dat1 V c).arrAt 5 cfg1.N
      = hiddenStage (V c main_v27 : Mat 100000 64) (V c main_v13 : Mat 100000 1) (V c main_v14 : Mat 1 64)
        (V c main_v12 : Mat 100000 1) (V c main_arg3 : Mat 64 64) :=
  (dat1 V c).arrAt_eq_of_cover 5 _ (fun t _ => flushed1 V c t) (cover1)

end Cert.KernelIdeal.Blocks

end
-- ==== Proof.Blocks2.lean ====
/-
  The third kernel, from its blocks to its whole output array.

  Point t of 50 loads rows 2000 t … 2000 t + 1999 of the aggregated features and of the in-degree factor, and the whole
  bias row, head weights and head bias row, and writes the same rows of the output. The head acts row by row, so what
  point t writes is that band of rows of the head of the whole arrays; the bands tile the rows, so the output array ends
  holding the head of the arrays the kernel found.
-/
import proofs.«165562_j10273561772520_1_alg».proof.Proof.Blocks0

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.GraphStages Cert.Layers

variable (V : (c : Dev nD) → (b : Ref sig .tc) → Buf (Elt Ideal) ((c : Thread nD τ).loc b))

/-- Where each window's block sits at point t: the row-tiled windows at block row t, the others at the origin. -/
theorem points2 : ∀ t : Fin cfg2.N, t.val < 50
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Every block row of the output is some point's. -/
theorem onto2 : ∀ q : Fin 50, ∃ t : Fin cfg2.N, win2_5.index t (0 : Fin 2) = q.val ∧ win2_5.index t (1 : Fin 2) = 0 :=
  (by decide +kernel : ∀ q : Fin 50, ∃ t : Fin grid2.N, win2_5.index t (0 : Fin 2) = q.val ∧ win2_5.index t (1 : Fin 2) = 0)

/-- The aggregated features' block at point t is their band of rows 2000 t …. -/
theorem aggregated_block2 (c : Dev nD) (t : Fin cfg2.N) :
    (iblk2 V c 0 t : Mat 2000 64) = band 2000 (2000 * t.val) (rows_le (points2 t).1) (V c main_v38 : Mat 100000 64) := by
  obtain ⟨-, e0, e1, -⟩ := points2 t
  funext y
  show V c main_v38 (((cfg2.win 0).blk t).view.emb y) = V c main_v38 (ix2 ⟨2000 * t.val + (y 0).val, _⟩ (y 1))
  refine congrArg (V c main_v38) (funext fun a => Fin.ext ?_)
  match a with
  | ⟨0, _⟩ => show win2_0.index t (0 : Fin 2) * 2000 + 1 * (y 0).val = 2000 * t.val + (y 0).val; omega
  | ⟨1, _⟩ => show win2_0.index t (1 : Fin 2) * 64 + 1 * (y 1).val = (y 1).val; omega

/-- The in-degree factor's block at point t is its band of rows. -/
theorem inFactor_block2 (c : Dev nD) (t : Fin cfg2.N) :
    (iblk2 V c 1 t : Mat 2000 1) = band 2000 (2000 * t.val) (rows_le (points2 t).1) (V c main_v13 : Mat 100000 1) := by
  obtain ⟨-, -, -, e0, e1, -⟩ := points2 t
  funext y
  show V c main_v13 (((cfg2.win 1).blk t).view.emb y) = V c main_v13 (ix2 ⟨2000 * t.val + (y 0).val, _⟩ (y 1))
  refine congrArg (V c main_v13) (funext fun a => Fin.ext ?_)
  match a with
  | ⟨0, _⟩ => show win2_1.index t (0 : Fin 2) * 2000 + 1 * (y 0).val = 2000 * t.val + (y 0).val; omega
  | ⟨1, _⟩ => show win2_1.index t (1 : Fin 2) * 1 + 1 * (y 1).val = (y 1).val; omega

/-- The bias row's block at every point is the whole row. -/
theorem bias_block2 (c : Dev nD) (t : Fin cfg2.N) : (iblk2 V c 2 t : Mat 1 64) = (V c main_v15 : Mat 1 64) := by
  obtain ⟨-, -, -, -, -, e0, e1, -⟩ := points2 t
  funext y
  show V c main_v15 (((cfg2.win 2).blk t).view.emb y) = V c main_v15 y
  refine congrArg (V c main_v15) (funext fun a => Fin.ext ?_)
  match a with
  | ⟨0, _⟩ => show win2_2.index t (0 : Fin 2) * 1 + 1 * (y 0).val = (y 0).val; omega
  | ⟨1, _⟩ => show win2_2.index t (1 : Fin 2) * 64 + 1 * (y 1).val = (y 1).val; omega

/-- The head weights' block at every point is the whole matrix. -/
theorem weights_block2 (c : Dev nD) (t : Fin cfg2.N) : (iblk2 V c 3 t : Mat 64 2) = (V c main_arg5 : Mat 64 2) := by
  obtain ⟨-, -, -, -, -, -, -, e0, e1, -⟩ := points2 t
  funext y
  show V c main_arg5 (((cfg2.win 3).blk t).view.emb y) = V c main_arg5 y
  refine congrArg (V c main_arg5) (funext fun a => Fin.ext ?_)
  match a with
  | ⟨0, _⟩ => show win2_3.index t (0 : Fin 2) * 64 + 1 * (y 0).val = (y 0).val; omega
  | ⟨1, _⟩ => show win2_3.index t (1 : Fin 2) * 2 + 1 * (y 1).val = (y 1).val; omega

/-- The head bias row's block at every point is the whole row. -/
theorem headBias_block2 (c : Dev nD) (t : Fin cfg2.N) : (iblk2 V c 4 t : Mat 1 2) = (V c main_v16 : Mat 1 2) := by
  obtain ⟨-, -, -, -, -, -, -, -, -, e0, e1, -⟩ := points2 t
  funext y
  show V c main_v16 (((cfg2.win 4).blk t).view.emb y) = V c main_v16 y
  refine congrArg (V c main_v16) (funext fun a => Fin.ext ?_)
  match a with
  | ⟨0, _⟩ => show win2_4.index t (0 : Fin 2) * 1 + 1 * (y 0).val = (y 0).val; omega
  | ⟨1, _⟩ => show win2_4.index t (1 : Fin 2) * 2 + 1 * (y 1).val = (y 1).val; omega

/-- What point t writes back is its band of rows of the stage of the whole arrays. -/
theorem flushed2 (c : Dev nD) (t : Fin cfg2.N) :
    (dat2 V c).flushed 5 t = ((cfg2.win 5).blk t).view.read (Elt Ideal)
      (headStage (V c main_v38 : Mat 100000 64) (V c main_v13 : Mat 100000 1) (V c main_v15 : Mat 1 64)
        (V c main_arg5 : Mat 64 2) (V c main_v16 : Mat 1 2)) := by
  show (cfg2.win 5).cut (grid2.coords t) ((dat2 V c).after 5 t) = _
  rw [after2_5]
  unfold out2_5
  rw [View.canon_unit_zero zero_offsets]
  simp only [View.ld_unit_zero (S := S2000x64) zero_offsets, View.ld_unit_zero (S := S2000x1) zero_offsets, View.ld_unit_zero (S := S1x64) zero_offsets, View.ld_unit_zero (S := S64x2) zero_offsets, View.ld_unit_zero (S := S1x2) zero_offsets]
  rw [Body.third_eq, aggregated_block2 V c t, inFactor_block2 V c t, bias_block2 V c t, weights_block2 V c t, headBias_block2 V c t, band_headStage]
  obtain ⟨-, -, -, -, -, -, -, -, -, -, -, e0, e1⟩ := points2 t
  funext j
  refine band_apply 2000 (2000 * t.val) _ _ j _ ?_ ?_
  · show win2_5.index t (0 : Fin 2) * 2000 + 1 * (j 0).val = 2000 * t.val + (j 0).val
    omega
  · show win2_5.index t (1 : Fin 2) * 2 + 1 * (j 1).val = (j 1).val
    omega

/-- An index of the output array is in point t's block iff each coordinate is in the block's range. -/
theorem mem_block2 (t : Fin cfg2.N) (i : S100000x2.Idx) :
    i ∈ ((cfg2.win 5).blk t).view.set ↔ ∀ a : Fin 2, win2_5.index t a * S2000x2.size a ≤ (i a).val
      ∧ (i a).val < win2_5.index t a * S2000x2.size a + S2000x2.size a := by
  show i ∈ ((View.whole main_v39).slice (win2_5.rect t)).set ↔ _
  rw [View.set_slice_whole, Rect.mem_set_unit]
  exact Iff.rfl

/-- Every index of the output array is in some point's block: row r is in block row r / 2000. -/
theorem cover2 (i : S100000x2.Idx) :
    ∃ t : Fin cfg2.N, (cfg2.win 5).flush t = true ∧ i ∈ ((cfg2.win 5).blk t).view.set := by
  have hi0 : (i 0).val < 100000 := (i 0).isLt
  have hi1 : (i 1).val < 2 := (i 1).isLt
  obtain ⟨t, q0, q1⟩ := onto2 ⟨(i 0).val / 2000, by omega⟩
  have q0' : win2_5.index t (0 : Fin 2) = (i 0).val / 2000 := q0
  refine ⟨t, flush2_5 t, ?_⟩
  rw [mem_block2]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 2 ≤ (i 1).val ∧ (i 1).val < win2_5.index t (1 : Fin 2) * 2 + 2; omega

/-- The kernel's output array after its run: the stage of the arrays it found. -/
theorem final2 (c : Dev nD) :
    (dat2 V c).arrAt 5 cfg2.N
      = headStage (V c main_v38 : Mat 100000 64) (V c main_v13 : Mat 100000 1) (V c main_v15 : Mat 1 64)
        (V c main_arg5 : Mat 64 2) (V c main_v16 : Mat 1 2) :=
  (dat2 V c).arrAt_eq_of_cover 5 _ (fun t _ => flushed2 V c t) (cover2)

end Cert.KernelIdeal.Blocks

end
-- ==== Proof.Network.lean ====
/-
  The two-layer graph convolution with a linear head, as one function of the nine inputs.

  Three parts are kept exactly as the host computes them. `degFactor idx` counts, for every node, the edges whose
  endpoint `idx` it is (a scatter-add of ones into zeros), clamps the count below at one and takes the reciprocal square
  root. `column` lays a vector out as a one-column matrix and `asRow` as a one-row matrix. `aggregate h src dst` gathers
  row src e of h for every edge e (a negative endpoint counted from the end) and scatter-adds it into row dst e of zeros.

  With s the column of the out-degree factor and r the column of the in-degree factor, the network is
  head (aggregate (second (aggregate (first x s W1)) r b1 s W2)) r b2 Wm bm, where `first`, `second` and `head` are the
  dense stages.
-/
import proofs.«165562_j10273561772520_1_alg».proof.Proof.Gen.KernelIdeal
import proofs.«165562_j10273561772520_1_alg».proof.Proof.LibGraphStages

noncomputable section

namespace Cert.KernelIdeal.Network

open Idealize.ShloMosaic Cert.KernelIdeal Cert.KernelIdeal.Gen Cert.GraphStages Cert.Layers

/-- The endpoint list of the edges: one node number per edge. -/
abbrev Ends : Type := (⟨S1600000, .i32⟩ : BufTy).Contents (Elt Ideal)

/-- Per node, one over the square root of the number of edges ending there, a node with none counted as one. -/
def degFactor (idx : Ends) : FVec Ideal S100000 .f32 :=
  Host.rsqrt (F := Ideal) (maximumf (broadcastInDim S100000 ![] bcast_S_S100000 (constant (F := Ideal) S_ .f32 0x3F800000#32))
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 idx)
      (broadcastInDim S1600000 ![] bcast_S_S1600000 (constant (F := Ideal) S_ .f32 0x3F800000#32))))

/-- A per-node vector as a one-column matrix. -/
def column (v : FVec Ideal S100000 .f32) : Mat 100000 1 := broadcastInDim S100000x1 ![0] bcast_S100000_S100000x1_0 v

/-- A bias vector of the hidden width as a one-row matrix. -/
def asRow (b : FVec Ideal S64 .f32) : Mat 1 64 := broadcastInDim S1x64 ![1] bcast_S64_S1x64_1 b

/-- The head's bias vector as a one-row matrix. -/
def asRow2 (b : FVec Ideal S2 .f32) : Mat 1 2 := broadcastInDim S1x2 ![1] bcast_S2_S1x2_1 b

/-- Row src e of h, for every edge e, added into row dst e of zeros. -/
def aggregate (h : Mat 100000 64) (src dst : Ends) : Mat 100000 64 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The network's result from its nine inputs. -/
def network (x : Mat 100000 128) (w1 : Mat 128 64) (b1 : FVec Ideal S64 .f32) (w2 : Mat 64 64) (b2 : FVec Ideal S64 .f32)
    (wm : Mat 64 2) (bm : FVec Ideal S2 .f32) (src dst : Ends) : Mat 100000 2 :=
  headStage
    (aggregate (hiddenStage (aggregate (scaledProd x (column (degFactor src)) w1) src dst)
      (column (degFactor dst)) (asRow b1) (column (degFactor src)) w2) src dst)
    (column (degFactor dst)) (asRow b2) wm (asRow2 bm)

end Cert.KernelIdeal.Network

end
-- ==== Proof.LibHostKeeps.lean ====
/-
  Buffers a line of host operations leaves alone.

  The buffers of a printed program are numbered within their memory space, the arguments first. When every
  operation of a line writes a buffer whose number is at least `n`, a buffer numbered below `n` holds after
  the line what it held before: one bound decided per operation, instead of one inequality per operation and
  per argument.
-/
import Idealize.ShloMosaic.Lib.StableHlo.Run

namespace Cert.LibHostKeeps

open Idealize.ShloMosaic Idealize.ShloMosaic.StableHlo

variable {τ : Topo} {sig : RefSig} {Val : EltTy → Type}

/-- A device buffer that is a TensorCore reference numbered at least `n` within its memory space. -/
def Above (n : Nat) (b : DevRef τ sig) : Prop := ∃ r : Ref sig .tc, b = Proc.devRef .tc r ∧ n ≤ r.idx.val

/-- If every operation of a line writes only buffers numbered at least `n`, a reference numbered below `n` keeps
    its contents through the line. -/
theorem after_of_above {n : Nat} (ops : List (HloOp τ sig Val))
    (h : ops.Forall fun op => ∀ b ∈ op.writes, Above (τ := τ) n b) (V : Valuation τ sig Val)
    (r : Ref sig .tc) (hr : r.idx.val < n) :
    after ops V (Proc.devRef .tc r) = V (Proc.devRef .tc r) :=
  after_of_forall_not_mem ops V fun op hop hb => by
    obtain ⟨r', he, hn⟩ := (List.forall_iff_forall_mem.mp h) op hop _ hb
    have e : r = r' := Proc.devRef_injective _ he
    subst e
    omega

/-- The bound passes to a concatenation of lines. -/
theorem above_append {n : Nat} {l₁ l₂ : List (HloOp τ sig Val)}
    (h₁ : l₁.Forall fun op => ∀ b ∈ op.writes, Above (τ := τ) n b)
    (h₂ : l₂.Forall fun op => ∀ b ∈ op.writes, Above (τ := τ) n b) :
    (l₁ ++ l₂).Forall fun op => ∀ b ∈ op.writes, Above (τ := τ) n b :=
  List.forall_iff_forall_mem.mpr fun x hx => (List.mem_append.mp hx).elim
    (List.forall_iff_forall_mem.mp h₁ x) (List.forall_iff_forall_mem.mp h₂ x)

end Cert.LibHostKeeps
-- ==== Proof.Stretches.lean ====
/-
  What each stretch of host operations leaves in the buffers that matter, from any starting contents.

  Before the first kernel the host computes the two degree factors in five stretches: ones scattered into zeros along the
  source endpoints; the clamp below at one; the reciprocal square root and the same scatter along the destination
  endpoints; its clamp; its reciprocal square root and the five re-lays (the two factors as columns, the three bias
  vectors as rows). Between kernels a stretch gathers the rows of the previous kernel's output along the source endpoints
  and scatter-adds them along the destination endpoints. Every stretch writes only buffers numbered from its first
  result on, so every earlier buffer keeps its contents through it.
-/
import proofs.«165562_j10273561772520_1_alg».proof.Proof.Gen.KernelIdeal.Launch
import proofs.«165562_j10273561772520_1_alg».proof.Proof.Network
import proofs.«165562_j10273561772520_1_alg».proof.Proof.LibHostKeeps

set_option maxRecDepth 16384

noncomputable section

namespace Cert.KernelIdeal.Stretches

open Idealize.ShloMosaic Idealize.ShloMosaic.TcCoe Idealize.ShloMosaic.StableHlo Idealize.SL.Sem
open Cert.KernelIdeal Cert.KernelIdeal.Gen Cert.KernelIdeal.Network Cert.LibHostKeeps Cert.Layers

/-- The buffer contents of one TensorCore. -/
abbrev Contents : Type := Valuation τ sig (Elt Ideal)

/-! ## Buffers a stretch leaves alone -/

theorem above0 : (hostOps0 : List (HloOp τ sig (Elt Ideal))).Forall fun op => ∀ b ∈ op.writes, Above (τ := τ) 9 b := by
  simp only [hostOps0, List.Forall, nullary_writes, unary_writes, binary_writes, ternary_writes, Finset.mem_singleton, forall_eq]
  repeat' apply And.intro
  all_goals exact ⟨_, rfl, by decide⟩

theorem above1 : (hostOps0_1 : List (HloOp τ sig (Elt Ideal))).Forall fun op => ∀ b ∈ op.writes, Above (τ := τ) 16 b := by
  simp only [hostOps0_1, List.Forall, nullary_writes, unary_writes, binary_writes, ternary_writes, Finset.mem_singleton, forall_eq]
  repeat' apply And.intro
  all_goals exact ⟨_, rfl, by decide⟩

theorem above2 : (hostOps0_2 : List (HloOp τ sig (Elt Ideal))).Forall fun op => ∀ b ∈ op.writes, Above (τ := τ) 19 b := by
  simp only [hostOps0_2, List.Forall, nullary_writes, unary_writes, binary_writes, ternary_writes, Finset.mem_singleton, forall_eq]
  repeat' apply And.intro
  all_goals exact ⟨_, rfl, by decide⟩

theorem above3 : (hostOps0_3 : List (HloOp τ sig (Elt Ideal))).Forall fun op => ∀ b ∈ op.writes, Above (τ := τ) 27 b := by
  simp only [hostOps0_3, List.Forall, nullary_writes, unary_writes, binary_writes, ternary_writes, Finset.mem_singleton, forall_eq]
  repeat' apply And.intro
  all_goals exact ⟨_, rfl, by decide⟩

theorem above4 : (hostOps0_4 : List (HloOp τ sig (Elt Ideal))).Forall fun op => ∀ b ∈ op.writes, Above (τ := τ) 30 b := by
  simp only [hostOps0_4, List.Forall, nullary_writes, unary_writes, binary_writes, ternary_writes, Finset.mem_singleton, forall_eq]
  repeat' apply And.intro
  all_goals exact ⟨_, rfl, by decide⟩

theorem aboveMid : (hostOps1 : List (HloOp τ sig (Elt Ideal))).Forall fun op => ∀ b ∈ op.writes, Above (τ := τ) 37 b := by
  simp only [hostOps1, List.Forall, nullary_writes, unary_writes, binary_writes, ternary_writes, Finset.mem_singleton, forall_eq]
  repeat' apply And.intro
  all_goals exact ⟨_, rfl, by decide⟩

theorem aboveLast : (hostOps2 : List (HloOp τ sig (Elt Ideal))).Forall fun op => ∀ b ∈ op.writes, Above (τ := τ) 51 b := by
  simp only [hostOps2, List.Forall, nullary_writes, unary_writes, binary_writes, ternary_writes, Finset.mem_singleton, forall_eq]
  repeat' apply And.intro
  all_goals exact ⟨_, rfl, by decide⟩

theorem keep0 (X : Contents) (r : Ref sig .tc) (hr : r.idx.val < 9) :
    after hostOps0 X (Proc.devRef .tc r) = X (Proc.devRef .tc r) := after_of_above _ above0 X r hr
theorem keep1 (X : Contents) (r : Ref sig .tc) (hr : r.idx.val < 16) :
    after hostOps0_1 X (Proc.devRef .tc r) = X (Proc.devRef .tc r) := after_of_above _ above1 X r hr
theorem keep2 (X : Contents) (r : Ref sig .tc) (hr : r.idx.val < 19) :
    after hostOps0_2 X (Proc.devRef .tc r) = X (Proc.devRef .tc r) := after_of_above _ above2 X r hr
theorem keep3 (X : Contents) (r : Ref sig .tc) (hr : r.idx.val < 27) :
    after hostOps0_3 X (Proc.devRef .tc r) = X (Proc.devRef .tc r) := after_of_above _ above3 X r hr
theorem keep4 (X : Contents) (r : Ref sig .tc) (hr : r.idx.val < 30) :
    after hostOps0_4 X (Proc.devRef .tc r) = X (Proc.devRef .tc r) := after_of_above _ above4 X r hr
theorem keepMid (X : Contents) (r : Ref sig .tc) (hr : r.idx.val < 37) :
    after hostOps1 X (Proc.devRef .tc r) = X (Proc.devRef .tc r) := after_of_above _ aboveMid X r hr
theorem keepLast (X : Contents) (r : Ref sig .tc) (hr : r.idx.val < 51) :
    after hostOps2 X (Proc.devRef .tc r) = X (Proc.devRef .tc r) := after_of_above _ aboveLast X r hr

/-! ## What each stretch computes -/

/-- The edge count per source node, and the one it will be clamped against. -/
theorem counts_src (X : Contents) :
    after hostOps0 X (Proc.devRef .tc main_v3)
      = Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 (X (Proc.devRef .tc main_arg7)))
          (broadcastInDim S1600000 ![] bcast_S_S1600000 (constant (F := Ideal) S_ .f32 0x3F800000#32)) := by
  after_results
theorem one_src (X : Contents) :
    after hostOps0 X (Proc.devRef .tc main_cst_1) = constant (F := Ideal) S_ .f32 0x3F800000#32 := by
  after_results

/-- The clamp of the source counts below at one. -/
theorem clamp_src (X : Contents) :
    (after hostOps0_1 X (Proc.devRef .tc main_v4) : FVec Ideal S100000 .f32)
      = maximumf (F := Ideal) (φ := .f32) (broadcastInDim (α := Ideal .f32) S100000 ![] bcast_S_S100000 (X (Proc.devRef .tc main_cst_1) : FVec Ideal S_ .f32))
          (X (Proc.devRef .tc main_v3) : FVec Ideal S100000 .f32) := by
  after_results
  try rfl

/-- The source factor, and the edge count per destination node with the one it will be clamped against. -/
theorem factor_src (X : Contents) :
    (after hostOps0_2 X (Proc.devRef .tc main_v5) : FVec Ideal S100000 .f32)
      = Host.rsqrt (F := Ideal) (φ := .f32) (X (Proc.devRef .tc main_v4) : FVec Ideal S100000 .f32) := by
  after_results
theorem counts_dst (X : Contents) :
    after hostOps0_2 X (Proc.devRef .tc main_v9)
      = Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 (X (Proc.devRef .tc main_arg8)))
          (broadcastInDim S1600000 ![] bcast_S_S1600000 (constant (F := Ideal) S_ .f32 0x3F800000#32)) := by
  after_results
theorem one_dst (X : Contents) :
    after hostOps0_2 X (Proc.devRef .tc main_cst_4) = constant (F := Ideal) S_ .f32 0x3F800000#32 := by
  after_results

/-- The clamp of the destination counts below at one. -/
theorem clamp_dst (X : Contents) :
    (after hostOps0_3 X (Proc.devRef .tc main_v10) : FVec Ideal S100000 .f32)
      = maximumf (F := Ideal) (φ := .f32) (broadcastInDim (α := Ideal .f32) S100000 ![] bcast_S_S100000 (X (Proc.devRef .tc main_cst_4) : FVec Ideal S_ .f32))
          (X (Proc.devRef .tc main_v9) : FVec Ideal S100000 .f32) := by
  after_results
  try rfl

/-- The last stretch before the first kernel: the destination factor and the five re-lays. -/
theorem column_src (X : Contents) :
    (after hostOps0_4 X (Proc.devRef .tc main_v12) : FVec Ideal S100000x1 .f32)
      = broadcastInDim (α := Ideal .f32) S100000x1 ![0] bcast_S100000_S100000x1_0 (X (Proc.devRef .tc main_v5) : FVec Ideal S100000 .f32) := by
  after_results
theorem column_dst (X : Contents) :
    (after hostOps0_4 X (Proc.devRef .tc main_v13) : FVec Ideal S100000x1 .f32)
      = broadcastInDim (α := Ideal .f32) S100000x1 ![0] bcast_S100000_S100000x1_0
          (Host.rsqrt (F := Ideal) (φ := .f32) (X (Proc.devRef .tc main_v10) : FVec Ideal S100000 .f32)) := by
  after_results
theorem row_b1 (X : Contents) :
    after hostOps0_4 X (Proc.devRef .tc main_v14) = broadcastInDim S1x64 ![1] bcast_S64_S1x64_1 (X (Proc.devRef .tc main_arg2)) := by
  after_results
theorem row_b2 (X : Contents) :
    after hostOps0_4 X (Proc.devRef .tc main_v15) = broadcastInDim S1x64 ![1] bcast_S64_S1x64_1 (X (Proc.devRef .tc main_arg4)) := by
  after_results
theorem row_bm (X : Contents) :
    after hostOps0_4 X (Proc.devRef .tc main_v16) = broadcastInDim S1x2 ![1] bcast_S2_S1x2_1 (X (Proc.devRef .tc main_arg6)) := by
  after_results

/-- The stretch between the first and second kernels aggregates the first kernel's output along the edges. -/
theorem aggregate_mid (X : Contents) :
    after hostOps1 X (Proc.devRef .tc main_v27)
      = aggregate (X (Proc.devRef .tc main_v17)) (X (Proc.devRef .tc main_arg7)) (X (Proc.devRef .tc main_arg8)) := by
  after_results_simp
  try rfl

/-- The stretch between the second and third kernels aggregates the second kernel's output along the edges. -/
theorem aggregate_last (X : Contents) :
    after hostOps2 X (Proc.devRef .tc main_v38)
      = aggregate (X (Proc.devRef .tc main_v28)) (X (Proc.devRef .tc main_arg7)) (X (Proc.devRef .tc main_arg8)) := by
  after_results_simp
  try rfl

/-! ## The contents when the first kernel is entered -/

/-- The five stretches before the first kernel, from contents X. -/
abbrev entry (X : Contents) : Contents :=
  after hostOps0_4 (after hostOps0_3 (after hostOps0_2 (after hostOps0_1 (after hostOps0 X))))

/-- An argument is as launched. -/
theorem entry_arg (X : Contents) (r : Ref sig .tc) (hr : r.idx.val < 9) : entry X (Proc.devRef .tc r) = X (Proc.devRef .tc r) := by
  show after hostOps0_4 _ _ = _
  rw [keep4 _ r (by omega), keep3 _ r (by omega), keep2 _ r (by omega), keep1 _ r (by omega), keep0 _ r hr]

/-- The out-degree factor as a column. -/
theorem entry_column_src (X : Contents) : entry X (Proc.devRef .tc main_v12) = column (degFactor (X (Proc.devRef .tc main_arg7))) := by
  show after hostOps0_4 _ _ = _
  rw [column_src, keep3 _ main_v5 (by decide), factor_src, clamp_src, one_src, counts_src]
  rfl

/-- The in-degree factor as a column. -/
theorem entry_column_dst (X : Contents) : entry X (Proc.devRef .tc main_v13) = column (degFactor (X (Proc.devRef .tc main_arg8))) := by
  show after hostOps0_4 _ _ = _
  rw [column_dst, clamp_dst, one_dst, counts_dst, keep1 _ main_arg8 (by decide), keep0 _ main_arg8 (by decide)]
  rfl

theorem entry_row_b1 (X : Contents) : entry X (Proc.devRef .tc main_v14) = asRow (X (Proc.devRef .tc main_arg2)) := by
  show after hostOps0_4 _ _ = _
  rw [row_b1, keep3 _ main_arg2 (by decide), keep2 _ main_arg2 (by decide), keep1 _ main_arg2 (by decide), keep0 _ main_arg2 (by decide)]
  rfl

theorem entry_row_b2 (X : Contents) : entry X (Proc.devRef .tc main_v15) = asRow (X (Proc.devRef .tc main_arg4)) := by
  show after hostOps0_4 _ _ = _
  rw [row_b2, keep3 _ main_arg4 (by decide), keep2 _ main_arg4 (by decide), keep1 _ main_arg4 (by decide), keep0 _ main_arg4 (by decide)]
  rfl

theorem entry_row_bm (X : Contents) : entry X (Proc.devRef .tc main_v16) = asRow2 (X (Proc.devRef .tc main_arg6)) := by
  show after hostOps0_4 _ _ = _
  rw [row_bm, keep3 _ main_arg6 (by decide), keep2 _ main_arg6 (by decide), keep1 _ main_arg6 (by decide), keep0 _ main_arg6 (by decide)]
  rfl

end Cert.KernelIdeal.Stretches

end
-- ==== Proof.KernelValue.lean ====
/-
  The idealized kernel's result buffer at the end of the run, as the network of the arguments.

  The buffer contents at each boundary between segments are followed from the launch to the return, only at the buffers
  the result depends on. Entering the first kernel the arguments are as launched and the two degree factors and the three
  bias vectors have been laid out as columns and rows. A kernel replaces its output array by its stage of the arrays it
  found and leaves every other buffer alone; a stretch between kernels aggregates the previous output along the edges and
  writes nothing the later kernels read besides. Composing the five steps gives the network.
-/
import proofs.«165562_j10273561772520_1_alg».proof.Proof.Gen.KernelIdeal.Frame
import proofs.«165562_j10273561772520_1_alg».proof.Proof.Blocks1
import proofs.«165562_j10273561772520_1_alg».proof.Proof.Blocks2
import proofs.«165562_j10273561772520_1_alg».proof.Proof.Stretches

set_option maxRecDepth 16384

noncomputable section

namespace Cert.KernelIdeal.Walk

open Idealize.ShloMosaic Idealize.ShloMosaic.TcCoe Idealize.ShloMosaic.StableHlo Idealize.SL.Sem
open Idealize.ShloMosaic.Pipeline (Dat)
open Cert.KernelIdeal Cert.KernelIdeal.Gen Cert.KernelIdeal.Network Cert.KernelIdeal.Stretches Cert.KernelIdeal.Blocks
open Cert.GraphStages Cert.Layers

variable (m : (ℓ : Loc nD τ sig) → Buf (Elt Ideal) ℓ) (ρ : Dev nD → PrngReg) (c : Dev nD)

/-- The out-degree factor as a column, of the launch contents of the source endpoints. -/
abbrev outColumn : Mat 100000 1 := column (degFactor (m ((c : Thread nD τ).loc main_arg7)))
/-- The in-degree factor as a column, of the launch contents of the destination endpoints. -/
abbrev inColumn : Mat 100000 1 := column (degFactor (m ((c : Thread nD τ).loc main_arg8)))
/-- The first kernel's output. -/
abbrev firstOut : Mat 100000 64 := scaledProd (m ((c : Thread nD τ).loc main_arg0)) (outColumn m c) (m ((c : Thread nD τ).loc main_arg1))
/-- Its aggregation along the edges. -/
abbrev firstAgg : Mat 100000 64 := aggregate (firstOut m c) (m ((c : Thread nD τ).loc main_arg7)) (m ((c : Thread nD τ).loc main_arg8))
/-- The second kernel's output. -/
abbrev secondOut : Mat 100000 64 :=
  hiddenStage (firstAgg m c) (inColumn m c) (asRow (m ((c : Thread nD τ).loc main_arg2))) (outColumn m c) (m ((c : Thread nD τ).loc main_arg3))
/-- Its aggregation along the edges. -/
abbrev secondAgg : Mat 100000 64 := aggregate (secondOut m c) (m ((c : Thread nD τ).loc main_arg7)) (m ((c : Thread nD τ).loc main_arg8))

/-! ## Entering the first kernel -/

theorem at5_arg0 : W5 m ρ c (Proc.devRef .tc main_arg0) = m ((c : Thread nD τ).loc main_arg0) := entry_arg (W0 m ρ c) main_arg0 (by decide)
theorem at5_arg1 : W5 m ρ c (Proc.devRef .tc main_arg1) = m ((c : Thread nD τ).loc main_arg1) := entry_arg (W0 m ρ c) main_arg1 (by decide)
theorem at5_arg3 : W5 m ρ c (Proc.devRef .tc main_arg3) = m ((c : Thread nD τ).loc main_arg3) := entry_arg (W0 m ρ c) main_arg3 (by decide)
theorem at5_arg5 : W5 m ρ c (Proc.devRef .tc main_arg5) = m ((c : Thread nD τ).loc main_arg5) := entry_arg (W0 m ρ c) main_arg5 (by decide)
theorem at5_arg7 : W5 m ρ c (Proc.devRef .tc main_arg7) = m ((c : Thread nD τ).loc main_arg7) := entry_arg (W0 m ρ c) main_arg7 (by decide)
theorem at5_arg8 : W5 m ρ c (Proc.devRef .tc main_arg8) = m ((c : Thread nD τ).loc main_arg8) := entry_arg (W0 m ρ c) main_arg8 (by decide)
theorem at5_v12 : W5 m ρ c (Proc.devRef .tc main_v12) = outColumn m c := entry_column_src (W0 m ρ c)
theorem at5_v13 : W5 m ρ c (Proc.devRef .tc main_v13) = inColumn m c := entry_column_dst (W0 m ρ c)
theorem at5_v14 : W5 m ρ c (Proc.devRef .tc main_v14) = asRow (m ((c : Thread nD τ).loc main_arg2)) := entry_row_b1 (W0 m ρ c)
theorem at5_v15 : W5 m ρ c (Proc.devRef .tc main_v15) = asRow (m ((c : Thread nD τ).loc main_arg4)) := entry_row_b2 (W0 m ρ c)
theorem at5_v16 : W5 m ρ c (Proc.devRef .tc main_v16) = asRow2 (m ((c : Thread nD τ).loc main_arg6)) := entry_row_bm (W0 m ρ c)

/-! ## After the first kernel -/

/-- The first kernel's output array: the scaled product of the features, the out-degree column and the first weights. -/
theorem at6_v17 : W6 m ρ c (Proc.devRef .tc main_v17) = firstOut m c := by
  refine (W6_arr m ρ c 3).trans ((final0 (V5 m ρ) c).trans ?_)
  show scaledProd (W5 m ρ c (Proc.devRef .tc main_arg0)) (W5 m ρ c (Proc.devRef .tc main_v12)) (W5 m ρ c (Proc.devRef .tc main_arg1)) = _
  rw [at5_arg0, at5_v12, at5_arg1]
/-- An input array of the first kernel is as entered. -/
theorem at6_v12 : W6 m ρ c (Proc.devRef .tc main_v12) = outColumn m c :=
  (W6_arr m ρ c 1).trans (((dat0 (V5 m ρ) c).arrAt_in 1 rfl _).trans ((A_eq0 (V5 m ρ) c 1).trans (at5_v12 m ρ c)))
theorem at6_arg3 : W6 m ρ c (Proc.devRef .tc main_arg3) = m ((c : Thread nD τ).loc main_arg3) := (W6_of_ne m ρ c main_arg3 (by decide)).trans (at5_arg3 m ρ c)
theorem at6_arg5 : W6 m ρ c (Proc.devRef .tc main_arg5) = m ((c : Thread nD τ).loc main_arg5) := (W6_of_ne m ρ c main_arg5 (by decide)).trans (at5_arg5 m ρ c)
theorem at6_arg7 : W6 m ρ c (Proc.devRef .tc main_arg7) = m ((c : Thread nD τ).loc main_arg7) := (W6_of_ne m ρ c main_arg7 (by decide)).trans (at5_arg7 m ρ c)
theorem at6_arg8 : W6 m ρ c (Proc.devRef .tc main_arg8) = m ((c : Thread nD τ).loc main_arg8) := (W6_of_ne m ρ c main_arg8 (by decide)).trans (at5_arg8 m ρ c)
theorem at6_v13 : W6 m ρ c (Proc.devRef .tc main_v13) = inColumn m c := (W6_of_ne m ρ c main_v13 (by decide)).trans (at5_v13 m ρ c)
theorem at6_v14 : W6 m ρ c (Proc.devRef .tc main_v14) = asRow (m ((c : Thread nD τ).loc main_arg2)) := (W6_of_ne m ρ c main_v14 (by decide)).trans (at5_v14 m ρ c)
theorem at6_v15 : W6 m ρ c (Proc.devRef .tc main_v15) = asRow (m ((c : Thread nD τ).loc main_arg4)) := (W6_of_ne m ρ c main_v15 (by decide)).trans (at5_v15 m ρ c)
theorem at6_v16 : W6 m ρ c (Proc.devRef .tc main_v16) = asRow2 (m ((c : Thread nD τ).loc main_arg6)) := (W6_of_ne m ρ c main_v16 (by decide)).trans (at5_v16 m ρ c)

/-! ## After the aggregation between the first and second kernels -/

theorem at7_v27 : W7 m ρ c (Proc.devRef .tc main_v27) = firstAgg m c := by
  refine (aggregate_mid (W6 m ρ c)).trans ?_
  rw [at6_v17, at6_arg7, at6_arg8]
theorem at7_arg3 : W7 m ρ c (Proc.devRef .tc main_arg3) = m ((c : Thread nD τ).loc main_arg3) := (keepMid (W6 m ρ c) main_arg3 (by decide)).trans (at6_arg3 m ρ c)
theorem at7_arg5 : W7 m ρ c (Proc.devRef .tc main_arg5) = m ((c : Thread nD τ).loc main_arg5) := (keepMid (W6 m ρ c) main_arg5 (by decide)).trans (at6_arg5 m ρ c)
theorem at7_arg7 : W7 m ρ c (Proc.devRef .tc main_arg7) = m ((c : Thread nD τ).loc main_arg7) := (keepMid (W6 m ρ c) main_arg7 (by decide)).trans (at6_arg7 m ρ c)
theorem at7_arg8 : W7 m ρ c (Proc.devRef .tc main_arg8) = m ((c : Thread nD τ).loc main_arg8) := (keepMid (W6 m ρ c) main_arg8 (by decide)).trans (at6_arg8 m ρ c)
theorem at7_v12 : W7 m ρ c (Proc.devRef .tc main_v12) = outColumn m c := (keepMid (W6 m ρ c) main_v12 (by decide)).trans (at6_v12 m ρ c)
theorem at7_v13 : W7 m ρ c (Proc.devRef .tc main_v13) = inColumn m c := (keepMid (W6 m ρ c) main_v13 (by decide)).trans (at6_v13 m ρ c)
theorem at7_v14 : W7 m ρ c (Proc.devRef .tc main_v14) = asRow (m ((c : Thread nD τ).loc main_arg2)) := (keepMid (W6 m ρ c) main_v14 (by decide)).trans (at6_v14 m ρ c)
theorem at7_v15 : W7 m ρ c (Proc.devRef .tc main_v15) = asRow (m ((c : Thread nD τ).loc main_arg4)) := (keepMid (W6 m ρ c) main_v15 (by decide)).trans (at6_v15 m ρ c)
theorem at7_v16 : W7 m ρ c (Proc.devRef .tc main_v16) = asRow2 (m ((c : Thread nD τ).loc main_arg6)) := (keepMid (W6 m ρ c) main_v16 (by decide)).trans (at6_v16 m ρ c)

/-! ## After the second kernel -/

/-- The second kernel's output array: the second stage of the aggregation, the two columns, the bias row and the weights. -/
theorem at8_v28 : W8 m ρ c (Proc.devRef .tc main_v28) = secondOut m c := by
  refine (W8_arr m ρ c 5).trans ((final1 (V7 m ρ) c).trans ?_)
  show hiddenStage (W7 m ρ c (Proc.devRef .tc main_v27)) (W7 m ρ c (Proc.devRef .tc main_v13)) (W7 m ρ c (Proc.devRef .tc main_v14))
    (W7 m ρ c (Proc.devRef .tc main_v12)) (W7 m ρ c (Proc.devRef .tc main_arg3)) = _
  rw [at7_v27, at7_v13, at7_v14, at7_v12, at7_arg3]
/-- An input array of the second kernel is as entered. -/
theorem at8_v13 : W8 m ρ c (Proc.devRef .tc main_v13) = inColumn m c :=
  (W8_arr m ρ c 1).trans (((dat1 (V7 m ρ) c).arrAt_in 1 rfl _).trans ((A_eq1 (V7 m ρ) c 1).trans (at7_v13 m ρ c)))
theorem at8_arg5 : W8 m ρ c (Proc.devRef .tc main_arg5) = m ((c : Thread nD τ).loc main_arg5) := (W8_of_ne m ρ c main_arg5 (by decide)).trans (at7_arg5 m ρ c)
theorem at8_arg7 : W8 m ρ c (Proc.devRef .tc main_arg7) = m ((c : Thread nD τ).loc main_arg7) := (W8_of_ne m ρ c main_arg7 (by decide)).trans (at7_arg7 m ρ c)
theorem at8_arg8 : W8 m ρ c (Proc.devRef .tc main_arg8) = m ((c : Thread nD τ).loc main_arg8) := (W8_of_ne m ρ c main_arg8 (by decide)).trans (at7_arg8 m ρ c)
theorem at8_v15 : W8 m ρ c (Proc.devRef .tc main_v15) = asRow (m ((c : Thread nD τ).loc main_arg4)) := (W8_of_ne m ρ c main_v15 (by decide)).trans (at7_v15 m ρ c)
theorem at8_v16 : W8 m ρ c (Proc.devRef .tc main_v16) = asRow2 (m ((c : Thread nD τ).loc main_arg6)) := (W8_of_ne m ρ c main_v16 (by decide)).trans (at7_v16 m ρ c)

/-! ## After the aggregation between the second and third kernels -/

theorem at9_v38 : W9 m ρ c (Proc.devRef .tc main_v38) = secondAgg m c := by
  refine (aggregate_last (W8 m ρ c)).trans ?_
  rw [at8_v28, at8_arg7, at8_arg8]
theorem at9_arg5 : W9 m ρ c (Proc.devRef .tc main_arg5) = m ((c : Thread nD τ).loc main_arg5) := (keepLast (W8 m ρ c) main_arg5 (by decide)).trans (at8_arg5 m ρ c)
theorem at9_v13 : W9 m ρ c (Proc.devRef .tc main_v13) = inColumn m c := (keepLast (W8 m ρ c) main_v13 (by decide)).trans (at8_v13 m ρ c)
theorem at9_v15 : W9 m ρ c (Proc.devRef .tc main_v15) = asRow (m ((c : Thread nD τ).loc main_arg4)) := (keepLast (W8 m ρ c) main_v15 (by decide)).trans (at8_v15 m ρ c)
theorem at9_v16 : W9 m ρ c (Proc.devRef .tc main_v16) = asRow2 (m ((c : Thread nD τ).loc main_arg6)) := (keepLast (W8 m ρ c) main_v16 (by decide)).trans (at8_v16 m ρ c)

/-! ## The result -/

/-- The result buffer at the last boundary: the third kernel's output array, the head of the second aggregation — the
    network of the launch contents of the arguments. -/
theorem result : W10 m ρ c (Proc.devRef .tc main_v39)
    = network (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 5).trans ((final2 (V9 m ρ) c).trans ?_)
  show headStage (W9 m ρ c (Proc.devRef .tc main_v38)) (W9 m ρ c (Proc.devRef .tc main_v13)) (W9 m ρ c (Proc.devRef .tc main_v15))
    (W9 m ρ c (Proc.devRef .tc main_arg5)) (W9 m ρ c (Proc.devRef .tc main_v16)) = _
  rw [at9_v38, at9_v13, at9_v15, at9_arg5, at9_v16]
  rfl

end Cert.KernelIdeal.Walk

end
-- ==== Proof.ReferenceValue.lean ====
/-
  The reference's result is the network of its arguments.

  The reference computes the degree factors, then twice: scale the rows, contract with the weights, gather and
  scatter-add along the edges, scale the rows, add the bias, clamp at zero; then the head's contraction plus its bias.
  Each host spelling denotes its dense stage, and the degree factors and the two aggregations are, operation for
  operation, the ones the network is defined with; so the composed term of the reference's run is the network.
-/
import proofs.«165562_j10273561772520_1_alg».proof.Proof.Gen.ReferenceIdeal.Run
import proofs.«165562_j10273561772520_1_alg».proof.Proof.Network

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Value Cert.GraphStages Cert.Layers

/-- The run's composed term, at exact arithmetic, is the network of the launch contents of the arguments. -/
theorem result_eq (m : (ℓ : Loc nD τ sig) → Buf (Elt Ideal) ℓ) (c : Dev nD) :
    res_main_v57 (F := Ideal) m c
      = Cert.KernelIdeal.Network.network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  unfold res_main_v57
  rw [host_scaledProd dot_S100000x128_S128x64_S100000x64_1_0_0_1_n_n rfl rfl rfl rfl rfl rfl,
    host_activate, host_scaledProd dot_S100000x64_S64x64_S100000x64_1_0_0_1_n_n rfl rfl rfl rfl rfl rfl,
    host_activate, host_prod dot_S100000x64_S64x2_S100000x2_1_0_0_1_n_n rfl rfl rfl rfl rfl rfl, host_addRow_mat]
  rfl

end Cert.ReferenceIdeal.RefValue

end
-- ==== Proof.lean ====
/-
  A two-layer graph convolution with a linear head: three Pallas kernels (the dense stages, tiled over bands of 2000 node
  rows) among host gathers and scatter-adds, against a plain jnp reference, at exact arithmetic.

  Both programs compute the same function of the nine inputs, the network of Proof/Network.lean: the degree factors and
  the two edge aggregations are the same host operations in both; each kernel's output array is its dense stage of the
  arrays it finds (Proof/KernelBody.lean, Proof/Blocks0.lean to Blocks2.lean), which is what the reference's broadcasts,
  contraction, maximum and sum denote (Proof/LibGraphStages.lean, Proof/ReferenceValue.lean). No law beyond the definitions is
  used: narrowing to bf16 is the identity on exact values, a product accumulated into zeros is the product, and the
  operations are applied in the same order on both sides; so the inputs' finiteness is never opened.

  The frames of the two kernel programs are the generated ones; the reference's frame is its generated run with the
  result dropped; the idealization rewrote nothing, so its ledger is empty.
-/
import proofs.«165562_j10273561772520_1_alg».proof.Defs
import proofs.«165562_j10273561772520_1_alg».proof.Proof.Gen.Kernel
import proofs.«165562_j10273561772520_1_alg».proof.Proof.Gen.Kernel.Skeleton
import proofs.«165562_j10273561772520_1_alg».proof.Proof.Gen.Kernel.Launch
import proofs.«165562_j10273561772520_1_alg».proof.Proof.Gen.Kernel.Points
import proofs.«165562_j10273561772520_1_alg».proof.Proof.Gen.Kernel.Frame
import proofs.«165562_j10273561772520_1_alg».proof.Proof.Gen.KernelIdeal
import proofs.«165562_j10273561772520_1_alg».proof.Proof.Gen.KernelIdeal.Skeleton
import proofs.«165562_j10273561772520_1_alg».proof.Proof.Gen.KernelIdeal.Launch
import proofs.«165562_j10273561772520_1_alg».proof.Proof.Gen.KernelIdeal.Points
import proofs.«165562_j10273561772520_1_alg».proof.Proof.Gen.KernelIdeal.Frame
import proofs.«165562_j10273561772520_1_alg».proof.Proof.Gen.ReferenceIdeal
import proofs.«165562_j10273561772520_1_alg».proof.Proof.Gen.Pre_finite_inputs
import proofs.«165562_j10273561772520_1_alg».proof.Proof.Gen.ReferenceIdeal.Run
import proofs.«165562_j10273561772520_1_alg».proof.Proof.KernelRun
import proofs.«165562_j10273561772520_1_alg».proof.Proof.KernelValue
import proofs.«165562_j10273561772520_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The idealized kernel's run ends with its result at the network of the arguments' launch contents. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v39)
        = Cert.KernelIdeal.Network.network (m ((c.tc : Thread Cert.KernelIdeal.nD Cert.KernelIdeal.τ).loc Cert.KernelIdeal.main_arg0)) (m ((c.tc : Thread Cert.KernelIdeal.nD Cert.KernelIdeal.τ).loc Cert.KernelIdeal.main_arg1))
            (m ((c.tc : Thread Cert.KernelIdeal.nD Cert.KernelIdeal.τ).loc Cert.KernelIdeal.main_arg2)) (m ((c.tc : Thread Cert.KernelIdeal.nD Cert.KernelIdeal.τ).loc Cert.KernelIdeal.main_arg3))
            (m ((c.tc : Thread Cert.KernelIdeal.nD Cert.KernelIdeal.τ).loc Cert.KernelIdeal.main_arg4)) (m ((c.tc : Thread Cert.KernelIdeal.nD Cert.KernelIdeal.τ).loc Cert.KernelIdeal.main_arg5))
            (m ((c.tc : Thread Cert.KernelIdeal.nD Cert.KernelIdeal.τ).loc Cert.KernelIdeal.main_arg6)) (m ((c.tc : Thread Cert.KernelIdeal.nD Cert.KernelIdeal.τ).loc Cert.KernelIdeal.main_arg7))
            (m ((c.tc : Thread Cert.KernelIdeal.nD Cert.KernelIdeal.τ).loc Cert.KernelIdeal.main_arg8))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run Cert.KernelIdeal.defs _ _).mono (fun _ h c => ⟨(h c).1.trans (Cert.KernelIdeal.Walk.result m ρ c), (h c).2⟩) (Cert.KernelIdeal.RunValue.run m ρ)

/-- From memories agreeing on the arguments both programs end at the network of those arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5, h6, h7, h8⟩ := hagree c
  rw [Cert.ReferenceIdeal.RefValue.result_eq m' c, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
